-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x544x960 : Shape := ⟨4, ![16, 2, 544, 960]⟩
abbrev S16x1x544x960 : Shape := ⟨4, ![16, 1, 544, 960]⟩
abbrev S_ : Shape := ⟨0, ![]⟩

class Facts : Prop where
  bcast_S_S16x2x544x960 : S_.BroadcastsInDim S16x2x544x960 (![] : Fin 0 → Fin S16x2x544x960.rank)
  reducesTo_S16x2x544x960_S_d0_1_2_3 : S16x2x544x960.ReducesTo [0, 1, 2, 3] S_
  h_S_ : 0 < S_.numel
  bcast_S_S16x1x544x960 : S_.BroadcastsInDim S16x1x544x960 (![] : Fin 0 → Fin S16x1x544x960.rank)
  reducesTo_S16x1x544x960_S_d0_1_2_3 : S16x1x544x960.ReducesTo [0, 1, 2, 3] S_

variable [Facts]

def fn {F : FTy → Type} [FloatOps F] (main_arg0 : FVec F S16x2x544x960 .f32) (main_arg1 : FVec F S16x1x544x960 .f32) : IVec S_ 1 :=
  let main_v0 : FVec F S16x2x544x960 .f32 := Host.absf main_arg0
  let main_cst : FVec F S_ .f32 := constant S_ .f32 0x7F800000#32
  let main_v1 : FVec F S16x2x544x960 .f32 := broadcastInDim S16x2x544x960 ![] bcast_S_S16x2x544x960 main_cst
  let main_v2 : IVec S16x2x544x960 1 := cmpf .olt main_v0 main_v1
  let main_c : IVec S_ 1 := constantI S_ 1 1#1
  let main_v3 : IVec S_ 1 := (fun x v => Host.reduce IntOp.andi x v reducesTo_S16x2x544x960_S_d0_1_2_3 h_S_) main_v2 main_c
  let main_v4 : FVec F S16x1x544x960 .f32 := Host.absf main_arg1
  let main_cst_0 : FVec F S_ .f32 := constant S_ .f32 0x7F800000#32
  let main_v5 : FVec F S16x1x544x960 .f32 := broadcastInDim S16x1x544x960 ![] bcast_S_S16x1x544x960 main_cst_0
  let main_v6 : IVec S16x1x544x960 1 := cmpf .olt main_v4 main_v5
  let main_c_1 : IVec S_ 1 := constantI S_ 1 1#1
  let main_v7 : IVec S_ 1 := (fun x v => Host.reduce IntOp.andi x v reducesTo_S16x1x544x960_S_d0_1_2_3 h_S_) main_v6 main_c_1
  let main_v8 : IVec S_ 1 := andi main_v3 main_v7
  main_v8
-- ==== Kernel.lean ====
abbrev S16x2x544x960 : Shape := ⟨4, ![16, 2, 544, 960]⟩
abbrev S16x1x544x960 : Shape := ⟨4, ![16, 1, 544, 960]⟩
abbrev S16x544x960 : Shape := ⟨3, ![16, 544, 960]⟩
abbrev S1x2x544x960 : Shape := ⟨4, ![1, 2, 544, 960]⟩
abbrev S1x1x544x960 : Shape := ⟨4, ![1, 1, 544, 960]⟩
abbrev S1x544x960 : Shape := ⟨3, ![1, 544, 960]⟩
abbrev S544x960 : Shape := ⟨2, ![544, 960]⟩
abbrev S8355840 : Shape := ⟨1, ![8355840]⟩
abbrev S2x16x544x960 : Shape := ⟨4, ![2, 16, 544, 960]⟩
abbrev S2x8355840 : Shape := ⟨2, ![2, 8355840]⟩
abbrev S1x8355840 : Shape := ⟨2, ![1, 8355840]⟩
abbrev S_ : Shape := ⟨0, ![]⟩
abbrev S8355840x1 : Shape := ⟨2, ![8355840, 1]⟩

abbrev nBuf : Space → Nat
  | .hbm => 29
  | .vmem => 18
  | .smem => 0
  | _ => 0

abbrev bufTy : (tb : Table) → Fin (tcTables nBuf tb) → BufTy
  | .hbm, ⟨0, _⟩ => ⟨S16x2x544x960, .f32⟩
  | .hbm, ⟨1, _⟩ => ⟨S16x1x544x960, .f32⟩
  | .hbm, ⟨2, _⟩ => ⟨S16x544x960, .i32⟩
  | .hbm, ⟨3, _⟩ => ⟨S16x544x960, .f32⟩
  | .hbm, ⟨4, _⟩ => ⟨S16x2x544x960, .f32⟩
  | .hbm, ⟨5, _⟩ => ⟨S8355840, .i32⟩
  | .hbm, ⟨6, _⟩ => ⟨S8355840, .f32⟩
  | .hbm, ⟨7, _⟩ => ⟨S2x16x544x960, .f32⟩
  | .hbm, ⟨8, _⟩ => ⟨S2x8355840, .f32⟩
  | .hbm, ⟨9, _⟩ => ⟨S1x8355840, .f32⟩
  | .hbm, ⟨10, _⟩ => ⟨S8355840, .f32⟩
  | .hbm, ⟨11, _⟩ => ⟨S_, .f32⟩
  | .hbm, ⟨12, _⟩ => ⟨S8355840, .f32⟩
  | .hbm, ⟨13, _⟩ => ⟨S8355840x1, .i32⟩
  | .hbm, ⟨14, _⟩ => ⟨S8355840, .f32⟩
  | .hbm, ⟨15, _⟩ => ⟨S16x544x960, .f32⟩
  | .hbm, ⟨16, _⟩ => ⟨S1x8355840, .f32⟩
  | .hbm, ⟨17, _⟩ => ⟨S8355840, .f32⟩
  | .hbm, ⟨18, _⟩ => ⟨S_, .f32⟩
  | .hbm, ⟨19, _⟩ => ⟨S8355840, .f32⟩
  | .hbm, ⟨20, _⟩ => ⟨S8355840x1, .i32⟩
  | .hbm, ⟨21, _⟩ => ⟨S8355840, .f32⟩
  | .hbm, ⟨22, _⟩ => ⟨S16x544x960, .f32⟩
  | .hbm, ⟨23, _⟩ => ⟨S_, .f32⟩
  | .hbm, ⟨24, _⟩ => ⟨S8355840, .f32⟩
  | .hbm, ⟨25, _⟩ => ⟨S8355840x1, .i32⟩
  | .hbm, ⟨26, _⟩ => ⟨S8355840, .f32⟩
  | .hbm, ⟨27, _⟩ => ⟨S16x544x960, .f32⟩
  | .hbm, ⟨28, _⟩ => ⟨S16x2x544x960, .f32⟩
  | .local _ .vmem, ⟨0, _⟩ => ⟨S1x2x544x960, .f32⟩
  | .local _ .vmem, ⟨1, _⟩ => ⟨S1x2x544x960, .f32⟩
  | .local _ .vmem, ⟨2, _⟩ => ⟨S1x1x544x960, .f32⟩
  | .local _ .vmem, ⟨3, _⟩ => ⟨S1x1x544x960, .f32⟩
  | .local _ .vmem, ⟨4, _⟩ => ⟨S1x544x960, .i32⟩
  | .local _ .vmem, ⟨5, _⟩ => ⟨S1x544x960, .i32⟩
  | .local _ .vmem, ⟨6, _⟩ => ⟨S1x544x960, .f32⟩
  | .local _ .vmem, ⟨7, _⟩ => ⟨S1x544x960, .f32⟩
  | .local _ .vmem, ⟨8, _⟩ => ⟨S1x2x544x960, .f32⟩
  | .local _ .vmem, ⟨9, _⟩ => ⟨S1x2x544x960, .f32⟩
  | .local _ .vmem, ⟨10, _⟩ => ⟨S1x544x960, .f32⟩
  | .local _ .vmem, ⟨11, _⟩ => ⟨S1x544x960, .f32⟩
  | .local _ .vmem, ⟨12, _⟩ => ⟨S1x544x960, .f32⟩
  | .local _ .vmem, ⟨13, _⟩ => ⟨S1x544x960, .f32⟩
  | .local _ .vmem, ⟨14, _⟩ => ⟨S1x544x960, .f32⟩
  | .local _ .vmem, ⟨15, _⟩ => ⟨S1x544x960, .f32⟩
  | .local _ .vmem, ⟨16, _⟩ => ⟨S1x2x544x960, .f32⟩
  | .local _ .vmem, ⟨17, _⟩ => ⟨S1x2x544x960, .f32⟩
  | _, _ => ⟨S16x2x544x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x544x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x544x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x544x960 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x544x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x544x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x544x960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x544x960 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x544x960 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2x544x960 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  iota_S544x960_d1_w32 : S544x960.Iotas .tc 32 [1]
  iota_S544x960_d0_w32 : S544x960.Iotas .tc 32 [0]
  inb_S1x2x544x960_S1x1x544x960_0_0_0_0 : ∀ a, (![0, 0, 0, 0] : Fin 4 → Nat) a + S1x1x544x960.size a ≤ S1x2x544x960.size a
  h_S1x1x544x960 : 0 < S1x1x544x960.numel
  shapeCasts_S1x1x544x960_S544x960 : S1x1x544x960.ShapeCasts S544x960
  inb_S1x2x544x960_S1x1x544x960_0_1_0_0 : ∀ a, (![0, 1, 0, 0] : Fin 4 → Nat) a + S1x1x544x960.size a ≤ S1x2x544x960.size a
  natLt_1_32 : 1 < 32
  inb_S1x1x544x960_S1x1x544x960_0_0_0_0 : ∀ a, (![0, 0, 0, 0] : Fin 4 → Nat) a + S1x1x544x960.size a ≤ S1x1x544x960.size a
  shapeCasts_S544x960_S1x1x544x960 : S544x960.ShapeCasts S1x1x544x960
  inb_S1x544x960_S1x544x960_0_0_0 : ∀ a, (![0, 0, 0] : Fin 3 → Nat) a + S1x544x960.size a ≤ S1x544x960.size a
  h_S1x544x960 : 0 < S1x544x960.numel
  shapeCasts_S1x544x960_S544x960 : S1x544x960.ShapeCasts S544x960
  shapeCasts_S544x960_S1x544x960 : S544x960.ShapeCasts S1x544x960
  shapeCasts_S16x544x960_S8355840 : S16x544x960.ShapeCasts S8355840
  transposes_S16x2x544x960_S2x16x544x960_1_0_2_3 : S16x2x544x960.Transposes [1, 0, 2, 3] S2x16x544x960
  shapeCasts_S2x16x544x960_S2x8355840 : S2x16x544x960.ShapeCasts S2x8355840
  slices_S2x8355840_S1x8355840_0_0 : S2x8355840.Slices ![0, 0] S1x8355840
  shapeCasts_S1x8355840_S8355840 : S1x8355840.ShapeCasts S8355840
  bcast_S_S8355840 : S_.BroadcastsInDim S8355840 (![] : Fin 0 → Fin S8355840.rank)
  bcast_S8355840_S8355840x1_0 : S8355840.BroadcastsInDim S8355840x1 (![0] : Fin 1 → Fin S8355840x1.rank)
  shapeCasts_S8355840_S16x544x960 : S8355840.ShapeCasts S16x544x960
  slices_S2x8355840_S1x8355840_1_0 : S2x8355840.Slices ![1, 0] S1x8355840
  scatter_S8355840_S8355840x1_S8355840_n_0_0_1_wf : ScatterDims.WF S8355840 S8355840x1 S8355840 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x544x960.size a ≤ S16x2x544x960.size a
  hwx0_0 : ∀ i : grid0.Coords, EltTy.bits .f32 = 32 ∨ (Rect.block (s := S16x2x544x960) S1x2x544x960.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x544x960.size a ≤ S16x1x544x960.size a
  hwx0_1 : ∀ i : grid0.Coords, EltTy.bits .f32 = 32 ∨ (Rect.block (s := S16x1x544x960) S1x1x544x960.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x544x960.size a ≤ S16x544x960.size a
  hwx0_2 : ∀ i : grid0.Coords, EltTy.bits .i32 = 32 ∨ (Rect.block (s := S16x544x960) S1x544x960.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x544x960.size a ≤ S16x544x960.size a
  hwx0_3 : ∀ i : grid0.Coords, EltTy.bits .f32 = 32 ∨ (Rect.block (s := S16x544x960) S1x544x960.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x544x960.size a ≤ S16x2x544x960.size a
  hwx0_4 : ∀ i : grid0.Coords, EltTy.bits .f32 = 32 ∨ (Rect.block (s := S16x2x544x960) S1x2x544x960.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x544x960.size a ≤ S16x544x960.size a
  hwx1_0 : ∀ i : grid1.Coords, EltTy.bits .f32 = 32 ∨ (Rect.block (s := S16x544x960) S1x544x960.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x544x960.size a ≤ S16x544x960.size a
  hwx1_1 : ∀ i : grid1.Coords, EltTy.bits .f32 = 32 ∨ (Rect.block (s := S16x544x960) S1x544x960.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x544x960.size a ≤ S16x544x960.size a
  hwx1_2 : ∀ i : grid1.Coords, EltTy.bits .f32 = 32 ∨ (Rect.block (s := S16x544x960) S1x544x960.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x544x960.size a ≤ S16x2x544x960.size a
  hwx1_3 : ∀ i : grid1.Coords, EltTy.bits .f32 = 32 ∨ (Rect.block (s := S16x2x544x960) S1x2x544x960.size (cc1_transform_3 i) (hinb1_3 i)).WholeWords (EltTy.packing .f32)

variable [Facts₀]

def scatter_S8355840_S8355840x1_S8355840_n_0_0_1 : ScatterDims S8355840 S8355840x1 S8355840 where
  updateWindowDims := []
  insertedWindowDims := [0]
  scatterDimsToOperandDims := [0]
  indexVectorDim := 1
  wf := scatter_S8355840_S8355840x1_S8355840_n_0_0_1_wf

abbrev win0_0 : Pipeline.Window sig grid0 :=
  Pipeline.Window.ofSpec (Memref.whole main_arg0) S1x2x544x960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x544x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x544x960.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x544x960.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x2x544x960.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S1x544x960.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x544x960.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x544x960.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x2x544x960.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2x544x960 : Shape := ⟨4, ![16, 2, 544, 960]⟩
abbrev S16x1x544x960 : Shape := ⟨4, ![16, 1, 544, 960]⟩
abbrev S544 : Shape := ⟨1, ![544]⟩
abbrev S960 : Shape := ⟨1, ![960]⟩
abbrev S544x960 : Shape := ⟨2, ![544, 960]⟩
abbrev S1x544x960 : Shape := ⟨3, ![1, 544, 960]⟩
abbrev S2x544x960 : Shape := ⟨3, ![2, 544, 960]⟩
abbrev S1x2x544x960 : Shape := ⟨4, ![1, 2, 544, 960]⟩
abbrev S16x544x960 : Shape := ⟨3, ![16, 544, 960]⟩
abbrev S_ : Shape := ⟨0, ![]⟩
abbrev S16 : Shape := ⟨1, ![16]⟩
abbrev S16x1x1 : Shape := ⟨3, ![16, 1, 1]⟩
abbrev S8355840 : Shape := ⟨1, ![8355840]⟩
abbrev S2x16x544x960 : Shape := ⟨4, ![2, 16, 544, 960]⟩
abbrev S2x8355840 : Shape := ⟨2, ![2, 8355840]⟩
abbrev S1x8355840 : Shape := ⟨2, ![1, 8355840]⟩
abbrev S8355840x1 : Shape := ⟨2, ![8355840, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x2x544x960, .f32⟩
  | .hbm, ⟨1, _⟩ => ⟨S16x1x544x960, .f32⟩
  | .hbm, ⟨2, _⟩ => ⟨S544, .i32⟩
  | .hbm, ⟨3, _⟩ => ⟨S960, .i32⟩
  | .hbm, ⟨4, _⟩ => ⟨S544x960, .i32⟩
  | .hbm, ⟨5, _⟩ => ⟨S544x960, .i32⟩
  | .hbm, ⟨6, _⟩ => ⟨S1x544x960, .i32⟩
  | .hbm, ⟨7, _⟩ => ⟨S1x544x960, .i32⟩
  | .hbm, ⟨8, _⟩ => ⟨S2x544x960, .i32⟩
  | .hbm, ⟨9, _⟩ => ⟨S2x544x960, .f32⟩
  | .hbm, ⟨10, _⟩ => ⟨S1x2x544x960, .f32⟩
  | .hbm, ⟨11, _⟩ => ⟨S16x2x544x960, .f32⟩
  | .hbm, ⟨12, _⟩ => ⟨S16x2x544x960, .f32⟩
  | .hbm, ⟨13, _⟩ => ⟨S16x2x544x960, .f32⟩
  | .hbm, ⟨14, _⟩ => ⟨S16x2x544x960, .i32⟩
  | .hbm, ⟨15, _⟩ => ⟨S16x1x544x960, .i32⟩
  | .hbm, ⟨16, _⟩ => ⟨S16x544x960, .i32⟩
  | .hbm, ⟨17, _⟩ => ⟨S16x1x544x960, .i32⟩
  | .hbm, ⟨18, _⟩ => ⟨S16x544x960, .i32⟩
  | .hbm, ⟨19, _⟩ => ⟨S_, .i32⟩
  | .hbm, ⟨20, _⟩ => ⟨S16x544x960, .i32⟩
  | .hbm, ⟨21, _⟩ => ⟨S16x544x960, .i1⟩
  | .hbm, ⟨22, _⟩ => ⟨S_, .i32⟩
  | .hbm, ⟨23, _⟩ => ⟨S16x544x960, .i32⟩
  | .hbm, ⟨24, _⟩ => ⟨S16x544x960, .i1⟩
  | .hbm, ⟨25, _⟩ => ⟨S16x544x960, .i1⟩
  | .hbm, ⟨26, _⟩ => ⟨S_, .i32⟩
  | .hbm, ⟨27, _⟩ => ⟨S16x544x960, .i32⟩
  | .hbm, ⟨28, _⟩ => ⟨S16x544x960, .i1⟩
  | .hbm, ⟨29, _⟩ => ⟨S16x544x960, .i1⟩
  | .hbm, ⟨30, _⟩ => ⟨S_, .i32⟩
  | .hbm, ⟨31, _⟩ => ⟨S16x544x960, .i32⟩
  | .hbm, ⟨32, _⟩ => ⟨S16x544x960, .i1⟩
  | .hbm, ⟨33, _⟩ => ⟨S16x544x960, .i1⟩
  | .hbm, ⟨34, _⟩ => ⟨S16x1x544x960, .i1⟩
  | .hbm, ⟨35, _⟩ => ⟨S_, .i32⟩
  | .hbm, ⟨36, _⟩ => ⟨S_, .i32⟩
  | .hbm, ⟨37, _⟩ => ⟨S16x2x544x960, .i1⟩
  | .hbm, ⟨38, _⟩ => ⟨S16x2x544x960, .i32⟩
  | .hbm, ⟨39, _⟩ => ⟨S16x2x544x960, .i32⟩
  | .hbm, ⟨40, _⟩ => ⟨S16x1x544x960, .i1⟩
  | .hbm, ⟨41, _⟩ => ⟨S16x1x544x960, .f32⟩
  | .hbm, ⟨42, _⟩ => ⟨S16x1x544x960, .f32⟩
  | .hbm, ⟨43, _⟩ => ⟨S16x2x544x960, .f32⟩
  | .hbm, ⟨44, _⟩ => ⟨S16x2x544x960, .f32⟩
  | .hbm, ⟨45, _⟩ => ⟨S16, .i32⟩
  | .hbm, ⟨46, _⟩ => ⟨S16x1x1, .i32⟩
  | .hbm, ⟨47, _⟩ => ⟨S_, .i32⟩
  | .hbm, ⟨48, _⟩ => ⟨S16x1x1, .i32⟩
  | .hbm, ⟨49, _⟩ => ⟨S16x1x1, .i32⟩
  | .hbm, ⟨50, _⟩ => ⟨S16x1x544x960, .i32⟩
  | .hbm, ⟨51, _⟩ => ⟨S16x544x960, .i32⟩
  | .hbm, ⟨52, _⟩ => ⟨S16x1x544x960, .i32⟩
  | .hbm, ⟨53, _⟩ => ⟨S16x544x960, .i32⟩
  | .hbm, ⟨54, _⟩ => ⟨S_, .i32⟩
  | .hbm, ⟨55, _⟩ => ⟨S16x544x960, .i32⟩
  | .hbm, ⟨56, _⟩ => ⟨S16x544x960, .i32⟩
  | .hbm, ⟨57, _⟩ => ⟨S16x544x960, .i32⟩
  | .hbm, ⟨58, _⟩ => ⟨S16x544x960, .i32⟩
  | .hbm, ⟨59, _⟩ => ⟨S16x544x960, .i32⟩
  | .hbm, ⟨60, _⟩ => ⟨S8355840, .i32⟩
  | .hbm, ⟨61, _⟩ => ⟨S2x16x544x960, .f32⟩
  | .hbm, ⟨62, _⟩ => ⟨S2x8355840, .f32⟩
  | .hbm, ⟨63, _⟩ => ⟨S8355840, .f32⟩
  | .hbm, ⟨64, _⟩ => ⟨S1x8355840, .f32⟩
  | .hbm, ⟨65, _⟩ => ⟨S8355840, .f32⟩
  | .hbm, ⟨66, _⟩ => ⟨S_, .f32⟩
  | .hbm, ⟨67, _⟩ => ⟨S8355840, .f32⟩
  | .hbm, ⟨68, _⟩ => ⟨S8355840x1, .i32⟩
  | .hbm, ⟨69, _⟩ => ⟨S8355840, .f32⟩
  | .hbm, ⟨70, _⟩ => ⟨S1x8355840, .f32⟩
  | .hbm, ⟨71, _⟩ => ⟨S8355840, .f32⟩
  | .hbm, ⟨72, _⟩ => ⟨S_, .f32⟩
  | .hbm, ⟨73, _⟩ => ⟨S8355840, .f32⟩
  | .hbm, ⟨74, _⟩ => ⟨S8355840x1, .i32⟩
  | .hbm, ⟨75, _⟩ => ⟨S8355840, .f32⟩
  | .hbm, ⟨76, _⟩ => ⟨S_, .f32⟩
  | .hbm, ⟨77, _⟩ => ⟨S8355840, .f32⟩
  | .hbm, ⟨78, _⟩ => ⟨S8355840x1, .i32⟩
  | .hbm, ⟨79, _⟩ => ⟨S8355840, .f32⟩
  | .hbm, ⟨80, _⟩ => ⟨S_, .f32⟩
  | .hbm, ⟨81, _⟩ => ⟨S8355840, .f32⟩
  | .hbm, ⟨82, _⟩ => ⟨S8355840, .f32⟩
  | .hbm, ⟨83, _⟩ => ⟨S_, .f32⟩
  | .hbm, ⟨84, _⟩ => ⟨S8355840, .f32⟩
  | .hbm, ⟨85, _⟩ => ⟨S8355840, .f32⟩
  | .hbm, ⟨86, _⟩ => ⟨S1x8355840, .f32⟩
  | .hbm, ⟨87, _⟩ => ⟨S1x8355840, .f32⟩
  | .hbm, ⟨88, _⟩ => ⟨S2x8355840, .f32⟩
  | .hbm, ⟨89, _⟩ => ⟨S1x8355840, .f32⟩
  | .hbm, ⟨90, _⟩ => ⟨S8355840, .f32⟩
  | .hbm, ⟨91, _⟩ => ⟨S_, .f32⟩
  | .hbm, ⟨92, _⟩ => ⟨S8355840, .f32⟩
  | .hbm, ⟨93, _⟩ => ⟨S8355840, .i1⟩
  | .hbm, ⟨94, _⟩ => ⟨S8355840, .f32⟩
  | .hbm, ⟨95, _⟩ => ⟨S8355840, .f32⟩
  | .hbm, ⟨96, _⟩ => ⟨S1x8355840, .f32⟩
  | .hbm, ⟨97, _⟩ => ⟨S2x8355840, .f32⟩
  | .hbm, ⟨98, _⟩ => ⟨S2x8355840, .f32⟩
  | .hbm, ⟨99, _⟩ => ⟨S2x16x544x960, .f32⟩
  | .hbm, ⟨100, _⟩ => ⟨S16x2x544x960, .f32⟩
  | _, _ => ⟨S16x2x544x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩

abbrev nD : Nat := 1
abbrev τ : Topo := Topo.v7x

variable {F : FTy → Type} [FloatOps F]

class Facts₀ : Prop where
  bcast_S544_S544x960_0 : S544.BroadcastsInDim S544x960 (![0] : Fin 1 → Fin S544x960.rank)
  bcast_S960_S544x960_1 : S960.BroadcastsInDim S544x960 (![1] : Fin 1 → Fin S544x960.rank)
  bcast_S544x960_S1x544x960_1_2 : S544x960.BroadcastsInDim S1x544x960 (![1, 2] : Fin 2 → Fin S1x544x960.rank)
  concatenates_S1x544x960_S1x544x960_S2x544x960_d0 : Shape.Concatenates [S1x544x960, S1x544x960] S2x544x960 0
  bcast_S2x544x960_S1x2x544x960_1_2_3 : S2x544x960.BroadcastsInDim S1x2x544x960 (![1, 2, 3] : Fin 3 → Fin S1x2x544x960.rank)
  bcast_S1x2x544x960_S16x2x544x960_0_1_2_3 : S1x2x544x960.BroadcastsInDim S16x2x544x960 (![0, 1, 2, 3] : Fin 4 → Fin S16x2x544x960.rank)
  slices_S16x2x544x960_S16x1x544x960_0_0_0_0 : S16x2x544x960.Slices ![0, 0, 0, 0] S16x1x544x960
  shapeCasts_S16x1x544x960_S16x544x960 : S16x1x544x960.ShapeCasts S16x544x960
  slices_S16x2x544x960_S16x1x544x960_0_1_0_0 : S16x2x544x960.Slices ![0, 1, 0, 0] S16x1x544x960
  bcast_S_S16x544x960 : S_.BroadcastsInDim S16x544x960 (![] : Fin 0 → Fin S16x544x960.rank)
  bcast_S16x544x960_S16x1x544x960_0_2_3 : S16x544x960.BroadcastsInDim S16x1x544x960 (![0, 2, 3] : Fin 3 → Fin S16x1x544x960.rank)
  bcast_S16x1x544x960_S16x2x544x960_0_1_2_3 : S16x1x544x960.BroadcastsInDim S16x2x544x960 (![0, 1, 2, 3] : Fin 4 → Fin S16x2x544x960.rank)
  bcast_S_S16x2x544x960 : S_.BroadcastsInDim S16x2x544x960 (![] : Fin 0 → Fin S16x2x544x960.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x544x960_0_1_2 : S16x1x1.BroadcastsInDim S16x544x960 (![0, 1, 2] : Fin 3 → Fin S16x544x960.rank)
  shapeCasts_S16x544x960_S8355840 : S16x544x960.ShapeCasts S8355840
  transposes_S16x2x544x960_S2x16x544x960_1_0_2_3 : S16x2x544x960.Transposes [1, 0, 2, 3] S2x16x544x960
  shapeCasts_S2x16x544x960_S2x8355840 : S2x16x544x960.ShapeCasts S2x8355840
  shapeCasts_S16x1x544x960_S8355840 : S16x1x544x960.ShapeCasts S8355840
  slices_S2x8355840_S1x8355840_0_0 : S2x8355840.Slices ![0, 0] S1x8355840
  shapeCasts_S1x8355840_S8355840 : S1x8355840.ShapeCasts S8355840
  bcast_S_S8355840 : S_.BroadcastsInDim S8355840 (![] : Fin 0 → Fin S8355840.rank)
  bcast_S8355840_S8355840x1_0 : S8355840.BroadcastsInDim S8355840x1 (![0] : Fin 1 → Fin S8355840x1.rank)
  slices_S2x8355840_S1x8355840_1_0 : S2x8355840.Slices ![1, 0] S1x8355840
  bcast_S8355840_S1x8355840_1 : S8355840.BroadcastsInDim S1x8355840 (![1] : Fin 1 → Fin S1x8355840.rank)
  concatenates_S1x8355840_S1x8355840_S2x8355840_d0 : Shape.Concatenates [S1x8355840, S1x8355840] S2x8355840 0
  bcast_S1x8355840_S2x8355840_0_1 : S1x8355840.BroadcastsInDim S2x8355840 (![0, 1] : Fin 2 → Fin S2x8355840.rank)
  shapeCasts_S2x8355840_S2x16x544x960 : S2x8355840.ShapeCasts S2x16x544x960
  transposes_S2x16x544x960_S16x2x544x960_1_0_2_3 : S2x16x544x960.Transposes [1, 0, 2, 3] S16x2x544x960
  scatter_S8355840_S8355840x1_S8355840_n_0_0_1_wf : ScatterDims.WF S8355840 S8355840x1 S8355840 [] [0] [0] 1

variable [Facts₀]

def scatter_S8355840_S8355840x1_S8355840_n_0_0_1 : ScatterDims S8355840 S8355840x1 S8355840 where
  updateWindowDims := []
  insertedWindowDims := [0]
  scatterDimsToOperandDims := [0]
  indexVectorDim := 1
  wf := scatter_S8355840_S8355840x1_S8355840_n_0_0_1_wf

class Facts : Prop extends Facts₀ where

variable [Facts]
-- ==== Proof.KernelRun.lean ====
/-
  The idealized kernel's run with its result array named.

  The program is two pipelined regions with a stretch of host operations between them. Its run is the chain of those three
  segments; the thread state after the last one holds every buffer at the contents the second region leaves (the fold
  `W3` of the frame module), and the result buffer is one of them. So every weakly fair execution terminates with the
  result array at `V3 m ρ c main_v21` and the two arguments as launched.
-/
import proofs.«104739_j16260746182799_1_alg».proof.Proof.KernelIdealFrame

set_option maxRecDepth 16384

noncomputable section

namespace Cert.KernelIdeal.RunOut

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the second region's exit contents, the arguments unchanged. -/
theorem run_out : θ_run defs (onTc (τ := τ) (main (F := F))) ⟨m, fun _ => 0, ρ⟩ (fun r => ∀ c : Dev nD,
      r.2.mem ((c.tc : Thread nD τ).loc main_v21) = V3 m ρ c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v21 (by decide)),
       (h c _ (mem_uc main_arg0 (by decide))).trans (W3_main_arg0 m ρ c),
       (h c _ (mem_uc main_arg1 (by decide))).trans (W3_main_arg1 m ρ c)⟩)

end Cert.KernelIdeal.RunOut

end
-- ==== Proof.RefRun.lean ====
/-
  The reference's run, stage by stage.

  The reference is a straight line of 99 host operations. Its buffers after the line are the fold of the operations' results
  over the launch contents. Read as ONE term of the arguments that fold repeats every shared intermediate once per use; read
  in twelve stretches, each stretch's few live results named by the stage functions `val_<buffer>` of the arguments, every
  intermediate is met once. After the last stretch the result buffer holds the last stage, and the two argument buffers are
  as launched: no operation writes them.
-/
import proofs.«104739_j16260746182799_1_alg».proof.Proof.RefOps
import proofs.«104739_j16260746182799_1_alg».proof.Proof.RefRead
import Idealize.ShloMosaic.Lib.Pipeline.Frame
import Idealize.ShloMosaic.Lib.StableHlo.Run

set_option maxRecDepth 8192

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The twelve stretches of the operation list -/

/-- Operations 1 to 13. -/
def c1 : List (HloOp τ sig (Elt F)) :=
  [ nullary main_v0 (iotaInDim S544 32 0),
    nullary main_v1 (iotaInDim S960 32 0),
    unary main_v0 main_v2 (broadcastInDim S544x960 ![0] bcast_S544_S544x960_0 : (⟨S544, .i32⟩ : BufTy).Contents (Elt F) → (⟨S544x960, .i32⟩ : BufTy).Contents (Elt F)),
    unary main_v1 main_v3 (broadcastInDim S544x960 ![1] bcast_S960_S544x960_1 : (⟨S960, .i32⟩ : BufTy).Contents (Elt F) → (⟨S544x960, .i32⟩ : BufTy).Contents (Elt F)),
    unary main_v3 main_v4 (broadcastInDim S1x544x960 ![1, 2] bcast_S544x960_S1x544x960_1_2 : (⟨S544x960, .i32⟩ : BufTy).Contents (Elt F) → (⟨S1x544x960, .i32⟩ : BufTy).Contents (Elt F)),
    unary main_v2 main_v5 (broadcastInDim S1x544x960 ![1, 2] bcast_S544x960_S1x544x960_1_2 : (⟨S544x960, .i32⟩ : BufTy).Contents (Elt F) → (⟨S1x544x960, .i32⟩ : BufTy).Contents (Elt F)),
    binary main_v4 main_v5 main_v6 ((fun a b => concatenate S2x544x960 0 [⟨S1x544x960, a⟩, ⟨S1x544x960, b⟩] concatenates_S1x544x960_S1x544x960_S2x544x960_d0) : (⟨S1x544x960, .i32⟩ : BufTy).Contents (Elt F) → (⟨S1x544x960, .i32⟩ : BufTy).Contents (Elt F) → (⟨S2x544x960, .i32⟩ : BufTy).Contents (Elt F)),
    unary main_v6 main_v7 (sitofp .f32 : (⟨S2x544x960, .i32⟩ : BufTy).Contents (Elt F) → (⟨S2x544x960, .f32⟩ : BufTy).Contents (Elt F)),
    unary main_v7 main_v8 (broadcastInDim S1x2x544x960 ![1, 2, 3] bcast_S2x544x960_S1x2x544x960_1_2_3 : (⟨S2x544x960, .f32⟩ : BufTy).Contents (Elt F) → (⟨S1x2x544x960, .f32⟩ : BufTy).Contents (Elt F)),
    unary main_v8 main_v9 (broadcastInDim S16x2x544x960 ![0, 1, 2, 3] bcast_S1x2x544x960_S16x2x544x960_0_1_2_3 : (⟨S1x2x544x960, .f32⟩ : BufTy).Contents (Elt F) → (⟨S16x2x544x960, .f32⟩ : BufTy).Contents (Elt F)),
    binary main_v9 main_arg0 main_v10 (subf : (⟨S16x2x544x960, .f32⟩ : BufTy).Contents (Elt F) → (⟨S16x2x544x960, .f32⟩ : BufTy).Contents (Elt F) → (⟨S16x2x544x960, .f32⟩ : BufTy).Contents (Elt F)),
    TRef.unary (TRef.of (T := ⟨S16x2x544x960, .f32⟩) main_v10) (TRef.of (T := ⟨S16x2x544x960, .f32⟩) main_v11) Host.roundeven,
    unary main_v11 main_v12 (fptosi 32 : (⟨S16x2x544x960, .f32⟩ : BufTy).Contents (Elt F) → (⟨S16x2x544x960, .i32⟩ : BufTy).Contents (Elt F)) ]

/-- Operations 14 to 32. -/
def c2 : List (HloOp τ sig (Elt F)) :=
  [ unary main_v12 main_v13 ((extractStridedSlice S16x1x544x960 ![0, 0, 0, 0] · slices_S16x2x544x960_S16x1x544x960_0_0_0_0) : (⟨S16x2x544x960, .i32⟩ : BufTy).Contents (Elt F) → (⟨S16x1x544x960, .i32⟩ : BufTy).Contents (Elt F)),
    reshape main_v13 main_v14 rfl shapeCasts_S16x1x544x960_S16x544x960,
    unary main_v12 main_v15 ((extractStridedSlice S16x1x544x960 ![0, 1, 0, 0] · slices_S16x2x544x960_S16x1x544x960_0_1_0_0) : (⟨S16x2x544x960, .i32⟩ : BufTy).Contents (Elt F) → (⟨S16x1x544x960, .i32⟩ : BufTy).Contents (Elt F)),
    reshape main_v15 main_v16 rfl shapeCasts_S16x1x544x960_S16x544x960,
    nullary main_c (constantI S_ 32 0#32),
    unary main_c main_v17 (broadcastInDim S16x544x960 ![] bcast_S_S16x544x960 : (⟨S_, .i32⟩ : BufTy).Contents (Elt F) → (⟨S16x544x960, .i32⟩ : BufTy).Contents (Elt F)),
    binary main_v14 main_v17 main_v18 (cmpi .sge : (⟨S16x544x960, .i32⟩ : BufTy).Contents (Elt F) → (⟨S16x544x960, .i32⟩ : BufTy).Contents (Elt F) → (⟨S16x544x960, .i1⟩ : BufTy).Contents (Elt F)),
    nullary main_c_0 (constantI S_ 32 960#32),
    unary main_c_0 main_v19 (broadcastInDim S16x544x960 ![] bcast_S_S16x544x960 : (⟨S_, .i32⟩ : BufTy).Contents (Elt F) → (⟨S16x544x960, .i32⟩ : BufTy).Contents (Elt F)),
    binary main_v14 main_v19 main_v20 (cmpi .slt : (⟨S16x544x960, .i32⟩ : BufTy).Contents (Elt F) → (⟨S16x544x960, .i32⟩ : BufTy).Contents (Elt F) → (⟨S16x544x960, .i1⟩ : BufTy).Contents (Elt F)),
    binary main_v18 main_v20 main_v21 (andi : (⟨S16x544x960, .i1⟩ : BufTy).Contents (Elt F) → (⟨S16x544x960, .i1⟩ : BufTy).Contents (Elt F) → (⟨S16x544x960, .i1⟩ : BufTy).Contents (Elt F)),
    nullary main_c_1 (constantI S_ 32 0#32),
    unary main_c_1 main_v22 (broadcastInDim S16x544x960 ![] bcast_S_S16x544x960 : (⟨S_, .i32⟩ : BufTy).Contents (Elt F) → (⟨S16x544x960, .i32⟩ : BufTy).Contents (Elt F)),
    binary main_v16 main_v22 main_v23 (cmpi .sge : (⟨S16x544x960, .i32⟩ : BufTy).Contents (Elt F) → (⟨S16x544x960, .i32⟩ : BufTy).Contents (Elt F) → (⟨S16x544x960, .i1⟩ : BufTy).Contents (Elt F)),
    binary main_v21 main_v23 main_v24 (andi : (⟨S16x544x960, .i1⟩ : BufTy).Contents (Elt F) → (⟨S16x544x960, .i1⟩ : BufTy).Contents (Elt F) → (⟨S16x544x960, .i1⟩ : BufTy).Contents (Elt F)),
    nullary main_c_2 (constantI S_ 32 544#32),
    unary main_c_2 main_v25 (broadcastInDim S16x544x960 ![] bcast_S_S16x544x960 : (⟨S_, .i32⟩ : BufTy).Contents (Elt F) → (⟨S16x544x960, .i32⟩ : BufTy).Contents (Elt F)),
    binary main_v16 main_v25 main_v26 (cmpi .slt : (⟨S16x544x960, .i32⟩ : BufTy).Contents (Elt F) → (⟨S16x544x960, .i32⟩ : BufTy).Contents (Elt F) → (⟨S16x544x960, .i1⟩ : BufTy).Contents (Elt F)),
    binary main_v24 main_v26 main_v27 (andi : (⟨S16x544x960, .i1⟩ : BufTy).Contents (Elt F) → (⟨S16x544x960, .i1⟩ : BufTy).Contents (Elt F) → (⟨S16x544x960, .i1⟩ : BufTy).Contents (Elt F)) ]

/-- Operations 33 to 38. -/
def c3 : List (HloOp τ sig (Elt F)) :=
  [ unary main_v27 main_v28 (broadcastInDim S16x1x544x960 ![0, 2, 3] bcast_S16x544x960_S16x1x544x960_0_2_3 : (⟨S16x544x960, .i1⟩ : BufTy).Contents (Elt F) → (⟨S16x1x544x960, .i1⟩ : BufTy).Contents (Elt F)),
    nullary main_c_3 (constantI S_ 32 0#32),
    TRef.unary (TRef.of (T := ⟨S_, .i32⟩) main_c_3) (TRef.of (T := ⟨S_, .i32⟩) main_call1_v0) id,
    TRef.unary (TRef.of (T := ⟨S16x1x544x960, .i1⟩) main_v28) (TRef.of (T := ⟨S16x2x544x960, .i1⟩) main_call1_v1) (broadcastInDim S16x2x544x960 ![0, 1, 2, 3] bcast_S16x1x544x960_S16x2x544x960_0_1_2_3),
    TRef.unary (TRef.of (T := ⟨S_, .i32⟩) main_call1_v0) (TRef.of (T := ⟨S16x2x544x960, .i32⟩) main_call1_v2) (broadcastInDim S16x2x544x960 ![] bcast_S_S16x2x544x960),
    TRef.ternary (TRef.of (T := ⟨S16x2x544x960, .i1⟩) main_call1_v1) (TRef.of (T := ⟨S16x2x544x960, .i32⟩) main_v12) (TRef.of (T := ⟨S16x2x544x960, .i32⟩) main_call1_v2) (TRef.of (T := ⟨S16x2x544x960, .i32⟩) main_v29) select ]

/-- Operations 39 to 43. -/
def c4 : List (HloOp τ sig (Elt F)) :=
  [ unary main_v27 main_v30 (broadcastInDim S16x1x544x960 ![0, 2, 3] bcast_S16x544x960_S16x1x544x960_0_2_3 : (⟨S16x544x960, .i1⟩ : BufTy).Contents (Elt F) → (⟨S16x1x544x960, .i1⟩ : BufTy).Contents (Elt F)),
    unary main_v30 main_v31 (uitofp .f32 : (⟨S16x1x544x960, .i1⟩ : BufTy).Contents (Elt F) → (⟨S16x1x544x960, .f32⟩ : BufTy).Contents (Elt F)),
    binary main_v31 main_arg1 main_v32 (mulf : (⟨S16x1x544x960, .f32⟩ : BufTy).Contents (Elt F) → (⟨S16x1x544x960, .f32⟩ : BufTy).Contents (Elt F) → (⟨S16x1x544x960, .f32⟩ : BufTy).Contents (Elt F)),
    unary main_v32 main_v33 (broadcastInDim S16x2x544x960 ![0, 1, 2, 3] bcast_S16x1x544x960_S16x2x544x960_0_1_2_3 : (⟨S16x1x544x960, .f32⟩ : BufTy).Contents (Elt F) → (⟨S16x2x544x960, .f32⟩ : BufTy).Contents (Elt F)),
    binary main_arg0 main_v33 main_v34 (mulf : (⟨S16x2x544x960, .f32⟩ : BufTy).Contents (Elt F) → (⟨S16x2x544x960, .f32⟩ : BufTy).Contents (Elt F) → (⟨S16x2x544x960, .f32⟩ : BufTy).Contents (Elt F)) ]

/-- Operations 44 to 59. -/
def c5 : List (HloOp τ sig (Elt F)) :=
  [ nullary main_v35 (iotaInDim S16 32 0),
    unary main_v35 main_v36 (broadcastInDim S16x1x1 ![0] bcast_S16_S16x1x1_0 : (⟨S16, .i32⟩ : BufTy).Contents (Elt F) → (⟨S16x1x1, .i32⟩ : BufTy).Contents (Elt F)),
    nullary main_c_4 (constantI S_ 32 522240#32),
    unary main_c_4 main_v37 (broadcastInDim S16x1x1 ![] bcast_S_S16x1x1 : (⟨S_, .i32⟩ : BufTy).Contents (Elt F) → (⟨S16x1x1, .i32⟩ : BufTy).Contents (Elt F)),
    binary main_v36 main_v37 main_v38 (muli : (⟨S16x1x1, .i32⟩ : BufTy).Contents (Elt F) → (⟨S16x1x1, .i32⟩ : BufTy).Contents (Elt F) → (⟨S16x1x1, .i32⟩ : BufTy).Contents (Elt F)),
    unary main_v29 main_v39 ((extractStridedSlice S16x1x544x960 ![0, 0, 0, 0] · slices_S16x2x544x960_S16x1x544x960_0_0_0_0) : (⟨S16x2x544x960, .i32⟩ : BufTy).Contents (Elt F) → (⟨S16x1x544x960, .i32⟩ : BufTy).Contents (Elt F)),
    reshape main_v39 main_v40 rfl shapeCasts_S16x1x544x960_S16x544x960,
    unary main_v29 main_v41 ((extractStridedSlice S16x1x544x960 ![0, 1, 0, 0] · slices_S16x2x544x960_S16x1x544x960_0_1_0_0) : (⟨S16x2x544x960, .i32⟩ : BufTy).Contents (Elt F) → (⟨S16x1x544x960, .i32⟩ : BufTy).Contents (Elt F)),
    reshape main_v41 main_v42 rfl shapeCasts_S16x1x544x960_S16x544x960,
    nullary main_c_5 (constantI S_ 32 960#32),
    unary main_c_5 main_v43 (broadcastInDim S16x544x960 ![] bcast_S_S16x544x960 : (⟨S_, .i32⟩ : BufTy).Contents (Elt F) → (⟨S16x544x960, .i32⟩ : BufTy).Contents (Elt F)),
    binary main_v42 main_v43 main_v44 (muli : (⟨S16x544x960, .i32⟩ : BufTy).Contents (Elt F) → (⟨S16x544x960, .i32⟩ : BufTy).Contents (Elt F) → (⟨S16x544x960, .i32⟩ : BufTy).Contents (Elt F)),
    binary main_v40 main_v44 main_v45 (addi : (⟨S16x544x960, .i32⟩ : BufTy).Contents (Elt F) → (⟨S16x544x960, .i32⟩ : BufTy).Contents (Elt F) → (⟨S16x544x960, .i32⟩ : BufTy).Contents (Elt F)),
    unary main_v38 main_v46 (broadcastInDim S16x544x960 ![0, 1, 2] bcast_S16x1x1_S16x544x960_0_1_2 : (⟨S16x1x1, .i32⟩ : BufTy).Contents (Elt F) → (⟨S16x544x960, .i32⟩ : BufTy).Contents (Elt F)),
    binary main_v45 main_v46 main_v47 (addi : (⟨S16x544x960, .i32⟩ : BufTy).Contents (Elt F) → (⟨S16x544x960, .i32⟩ : BufTy).Contents (Elt F) → (⟨S16x544x960, .i32⟩ : BufTy).Contents (Elt F)),
    reshape main_v47 main_v48 rfl shapeCasts_S16x544x960_S8355840 ]

/-- Operations 60 to 68. -/
def c6 : List (HloOp τ sig (Elt F)) :=
  [ unary main_v34 main_v49 ((transpose S2x16x544x960 [1, 0, 2, 3] · transposes_S16x2x544x960_S2x16x544x960_1_0_2_3) : (⟨S16x2x544x960, .f32⟩ : BufTy).Contents (Elt F) → (⟨S2x16x544x960, .f32⟩ : BufTy).Contents (Elt F)),
    reshape main_v49 main_v50 rfl shapeCasts_S2x16x544x960_S2x8355840,
    reshape main_v32 main_v51 rfl shapeCasts_S16x1x544x960_S8355840,
    unary main_v50 main_v52 ((extractStridedSlice S1x8355840 ![0, 0] · slices_S2x8355840_S1x8355840_0_0) : (⟨S2x8355840, .f32⟩ : BufTy).Contents (Elt F) → (⟨S1x8355840, .f32⟩ : BufTy).Contents (Elt F)),
    reshape main_v52 main_v53 rfl shapeCasts_S1x8355840_S8355840,
    nullary main_cst (constant S_ .f32 0x00000000#32),
    unary main_cst main_v54 (broadcastInDim S8355840 ![] bcast_S_S8355840 : (⟨S_, .f32⟩ : BufTy).Contents (Elt F) → (⟨S8355840, .f32⟩ : BufTy).Contents (Elt F)),
    unary main_v48 main_v55 (broadcastInDim S8355840x1 ![0] bcast_S8355840_S8355840x1_0 : (⟨S8355840, .i32⟩ : BufTy).Contents (Elt F) → (⟨S8355840x1, .i32⟩ : BufTy).Contents (Elt F)),
    ternary main_v54 main_v55 main_v53 main_v56 ((fun x i u => Host.scatterAdd scatter_S8355840_S8355840x1_S8355840_n_0_0_1 x i u) : (⟨S8355840, .f32⟩ : BufTy).Contents (Elt F) → (⟨S8355840x1, .i32⟩ : BufTy).Contents (Elt F) → (⟨S8355840, .f32⟩ : BufTy).Contents (Elt F) → (⟨S8355840, .f32⟩ : BufTy).Contents (Elt F)) ]

/-- Operations 69 to 74. -/
def c7 : List (HloOp τ sig (Elt F)) :=
  [ unary main_v50 main_v57 ((extractStridedSlice S1x8355840 ![1, 0] · slices_S2x8355840_S1x8355840_1_0) : (⟨S2x8355840, .f32⟩ : BufTy).Contents (Elt F) → (⟨S1x8355840, .f32⟩ : BufTy).Contents (Elt F)),
    reshape main_v57 main_v58 rfl shapeCasts_S1x8355840_S8355840,
    nullary main_cst_6 (constant S_ .f32 0x00000000#32),
    unary main_cst_6 main_v59 (broadcastInDim S8355840 ![] bcast_S_S8355840 : (⟨S_, .f32⟩ : BufTy).Contents (Elt F) → (⟨S8355840, .f32⟩ : BufTy).Contents (Elt F)),
    unary main_v48 main_v60 (broadcastInDim S8355840x1 ![0] bcast_S8355840_S8355840x1_0 : (⟨S8355840, .i32⟩ : BufTy).Contents (Elt F) → (⟨S8355840x1, .i32⟩ : BufTy).Contents (Elt F)),
    ternary main_v59 main_v60 main_v58 main_v61 ((fun x i u => Host.scatterAdd scatter_S8355840_S8355840x1_S8355840_n_0_0_1 x i u) : (⟨S8355840, .f32⟩ : BufTy).Contents (Elt F) → (⟨S8355840x1, .i32⟩ : BufTy).Contents (Elt F) → (⟨S8355840, .f32⟩ : BufTy).Contents (Elt F) → (⟨S8355840, .f32⟩ : BufTy).Contents (Elt F)) ]

/-- Operations 75 to 78. -/
def c8 : List (HloOp τ sig (Elt F)) :=
  [ nullary main_cst_7 (constant S_ .f32 0x00000000#32),
    unary main_cst_7 main_v62 (broadcastInDim S8355840 ![] bcast_S_S8355840 : (⟨S_, .f32⟩ : BufTy).Contents (Elt F) → (⟨S8355840, .f32⟩ : BufTy).Contents (Elt F)),
    unary main_v48 main_v63 (broadcastInDim S8355840x1 ![0] bcast_S8355840_S8355840x1_0 : (⟨S8355840, .i32⟩ : BufTy).Contents (Elt F) → (⟨S8355840x1, .i32⟩ : BufTy).Contents (Elt F)),
    ternary main_v62 main_v63 main_v51 main_v64 ((fun x i u => Host.scatterAdd scatter_S8355840_S8355840x1_S8355840_n_0_0_1 x i u) : (⟨S8355840, .f32⟩ : BufTy).Contents (Elt F) → (⟨S8355840x1, .i32⟩ : BufTy).Contents (Elt F) → (⟨S8355840, .f32⟩ : BufTy).Contents (Elt F) → (⟨S8355840, .f32⟩ : BufTy).Contents (Elt F)) ]

/-- Operations 79 to 84. -/
def c9 : List (HloOp τ sig (Elt F)) :=
  [ nullary main_cst_8 (constant S_ .f32 0x33D6BF95#32),
    unary main_cst_8 main_v65 (broadcastInDim S8355840 ![] bcast_S_S8355840 : (⟨S_, .f32⟩ : BufTy).Contents (Elt F) → (⟨S8355840, .f32⟩ : BufTy).Contents (Elt F)),
    binary main_v64 main_v65 main_v66 (addf : (⟨S8355840, .f32⟩ : BufTy).Contents (Elt F) → (⟨S8355840, .f32⟩ : BufTy).Contents (Elt F) → (⟨S8355840, .f32⟩ : BufTy).Contents (Elt F)),
    nullary main_cst_9 (constant S_ .f32 0x3F800000#32),
    unary main_cst_9 main_v67 (broadcastInDim S8355840 ![] bcast_S_S8355840 : (⟨S_, .f32⟩ : BufTy).Contents (Elt F) → (⟨S8355840, .f32⟩ : BufTy).Contents (Elt F)),
    binary main_v67 main_v66 main_v68 (Host.divf : (⟨S8355840, .f32⟩ : BufTy).Contents (Elt F) → (⟨S8355840, .f32⟩ : BufTy).Contents (Elt F) → (⟨S8355840, .f32⟩ : BufTy).Contents (Elt F)) ]

/-- Operations 85 to 87. -/
def c10 : List (HloOp τ sig (Elt F)) :=
  [ unary main_v56 main_v69 (broadcastInDim S1x8355840 ![1] bcast_S8355840_S1x8355840_1 : (⟨S8355840, .f32⟩ : BufTy).Contents (Elt F) → (⟨S1x8355840, .f32⟩ : BufTy).Contents (Elt F)),
    unary main_v61 main_v70 (broadcastInDim S1x8355840 ![1] bcast_S8355840_S1x8355840_1 : (⟨S8355840, .f32⟩ : BufTy).Contents (Elt F) → (⟨S1x8355840, .f32⟩ : BufTy).Contents (Elt F)),
    binary main_v69 main_v70 main_v71 ((fun a b => concatenate S2x8355840 0 [⟨S1x8355840, a⟩, ⟨S1x8355840, b⟩] concatenates_S1x8355840_S1x8355840_S2x8355840_d0) : (⟨S1x8355840, .f32⟩ : BufTy).Contents (Elt F) → (⟨S1x8355840, .f32⟩ : BufTy).Contents (Elt F) → (⟨S2x8355840, .f32⟩ : BufTy).Contents (Elt F)) ]

/-- Operations 88 to 94. -/
def c11 : List (HloOp τ sig (Elt F)) :=
  [ unary main_v71 main_v72 ((extractStridedSlice S1x8355840 ![0, 0] · slices_S2x8355840_S1x8355840_0_0) : (⟨S2x8355840, .f32⟩ : BufTy).Contents (Elt F) → (⟨S1x8355840, .f32⟩ : BufTy).Contents (Elt F)),
    reshape main_v72 main_v73 rfl shapeCasts_S1x8355840_S8355840,
    nullary main_cst_10 (constant S_ .f32 0x00000000#32),
    unary main_cst_10 main_v74 (broadcastInDim S8355840 ![] bcast_S_S8355840 : (⟨S_, .f32⟩ : BufTy).Contents (Elt F) → (⟨S8355840, .f32⟩ : BufTy).Contents (Elt F)),
    binary main_v73 main_v74 main_v75 (cmpf .une : (⟨S8355840, .f32⟩ : BufTy).Contents (Elt F) → (⟨S8355840, .f32⟩ : BufTy).Contents (Elt F) → (⟨S8355840, .i1⟩ : BufTy).Contents (Elt F)),
    unary main_v75 main_v76 (uitofp .f32 : (⟨S8355840, .i1⟩ : BufTy).Contents (Elt F) → (⟨S8355840, .f32⟩ : BufTy).Contents (Elt F)),
    binary main_v76 main_v68 main_v77 (mulf : (⟨S8355840, .f32⟩ : BufTy).Contents (Elt F) → (⟨S8355840, .f32⟩ : BufTy).Contents (Elt F) → (⟨S8355840, .f32⟩ : BufTy).Contents (Elt F)) ]

/-- Operations 95 to 99. -/
def c12 : List (HloOp τ sig (Elt F)) :=
  [ unary main_v77 main_v78 (broadcastInDim S1x8355840 ![1] bcast_S8355840_S1x8355840_1 : (⟨S8355840, .f32⟩ : BufTy).Contents (Elt F) → (⟨S1x8355840, .f32⟩ : BufTy).Contents (Elt F)),
    unary main_v78 main_v79 (broadcastInDim S2x8355840 ![0, 1] bcast_S1x8355840_S2x8355840_0_1 : (⟨S1x8355840, .f32⟩ : BufTy).Contents (Elt F) → (⟨S2x8355840, .f32⟩ : BufTy).Contents (Elt F)),
    binary main_v71 main_v79 main_v80 (mulf : (⟨S2x8355840, .f32⟩ : BufTy).Contents (Elt F) → (⟨S2x8355840, .f32⟩ : BufTy).Contents (Elt F) → (⟨S2x8355840, .f32⟩ : BufTy).Contents (Elt F)),
    reshape main_v80 main_v81 rfl shapeCasts_S2x8355840_S2x16x544x960,
    unary main_v81 main_v82 ((transpose S16x2x544x960 [1, 0, 2, 3] · transposes_S2x16x544x960_S16x2x544x960_1_0_2_3) : (⟨S2x16x544x960, .f32⟩ : BufTy).Contents (Elt F) → (⟨S16x2x544x960, .f32⟩ : BufTy).Contents (Elt F)) ]

/-- The operation list is the stretches in order. -/
theorem ops_eq : (ops : List (HloOp τ sig (Elt F))) = c1 ++ (c2 ++ (c3 ++ (c4 ++ (c5 ++ (c6 ++ (c7 ++ (c8 ++ (c9 ++ (c10 ++ (c11 ++ (c12))))))))))) := rfl

/-! ## The buffer contents after each stretch -/

variable (W : Valuation τ sig (Elt F))

def W1 : Valuation τ sig (Elt F) := after (c1 (F := F)) W
def W2 : Valuation τ sig (Elt F) := after (c2 (F := F)) (W1 W)
def W3 : Valuation τ sig (Elt F) := after (c3 (F := F)) (W2 W)
def W4 : Valuation τ sig (Elt F) := after (c4 (F := F)) (W3 W)
def W5 : Valuation τ sig (Elt F) := after (c5 (F := F)) (W4 W)
def W6 : Valuation τ sig (Elt F) := after (c6 (F := F)) (W5 W)
def W7 : Valuation τ sig (Elt F) := after (c7 (F := F)) (W6 W)
def W8 : Valuation τ sig (Elt F) := after (c8 (F := F)) (W7 W)
def W9 : Valuation τ sig (Elt F) := after (c9 (F := F)) (W8 W)
def W10 : Valuation τ sig (Elt F) := after (c10 (F := F)) (W9 W)
def W11 : Valuation τ sig (Elt F) := after (c11 (F := F)) (W10 W)
def W12 : Valuation τ sig (Elt F) := after (c12 (F := F)) (W11 W)

/-- The fold over the whole list is the fold stretch by stretch. -/
theorem after_ops : after (ops (F := F)) W = W12 W := by
  rw [ops_eq]
  simp only [StableHlo.after_append]
  try rfl

/-! ## What is live after each stretch, as stages of the arguments -/

theorem st1_arg0 : W1 W (Proc.devRef .tc main_arg0) = W (Proc.devRef .tc main_arg0) := by
  unfold W1 c1
  after_results

theorem st1_arg1 : W1 W (Proc.devRef .tc main_arg1) = W (Proc.devRef .tc main_arg1) := by
  unfold W1 c1
  after_results

theorem st1_v12 : W1 W (Proc.devRef .tc main_v12) = val_main_v12 (F := F) (W (Proc.devRef .tc main_arg0)) := by
  unfold W1 c1
  after_results
  rfl

theorem st2_arg0 : W2 W (Proc.devRef .tc main_arg0) = W (Proc.devRef .tc main_arg0) := by
  unfold W2 c2
  after_results
  exact st1_arg0 W

theorem st2_arg1 : W2 W (Proc.devRef .tc main_arg1) = W (Proc.devRef .tc main_arg1) := by
  unfold W2 c2
  after_results
  exact st1_arg1 W

theorem st2_v12 : W2 W (Proc.devRef .tc main_v12) = val_main_v12 (F := F) (W (Proc.devRef .tc main_arg0)) := by
  unfold W2 c2
  after_results
  simp only [st1_v12 W, st1_arg0 W, st1_arg1 W]
  try rfl

theorem st2_v27 : W2 W (Proc.devRef .tc main_v27) = val_main_v27 (F := F) (W (Proc.devRef .tc main_arg0)) := by
  unfold W2 c2
  after_results
  simp only [st1_v12 W, st1_arg0 W, st1_arg1 W]
  try rfl

theorem st3_arg0 : W3 W (Proc.devRef .tc main_arg0) = W (Proc.devRef .tc main_arg0) := by
  unfold W3 c3
  after_results
  exact st2_arg0 W

theorem st3_arg1 : W3 W (Proc.devRef .tc main_arg1) = W (Proc.devRef .tc main_arg1) := by
  unfold W3 c3
  after_results
  exact st2_arg1 W

theorem st3_v27 : W3 W (Proc.devRef .tc main_v27) = val_main_v27 (F := F) (W (Proc.devRef .tc main_arg0)) := by
  unfold W3 c3
  after_results
  simp only [st2_v12 W, st2_v27 W, st2_arg0 W, st2_arg1 W]
  try rfl

theorem st3_v29 : W3 W (Proc.devRef .tc main_v29) = val_main_v29 (F := F) (W (Proc.devRef .tc main_arg0)) := by
  unfold W3 c3
  after_results
  simp only [st2_v12 W, st2_v27 W, st2_arg0 W, st2_arg1 W]
  try rfl

theorem st4_arg0 : W4 W (Proc.devRef .tc main_arg0) = W (Proc.devRef .tc main_arg0) := by
  unfold W4 c4
  after_results
  exact st3_arg0 W

theorem st4_arg1 : W4 W (Proc.devRef .tc main_arg1) = W (Proc.devRef .tc main_arg1) := by
  unfold W4 c4
  after_results
  exact st3_arg1 W

theorem st4_v29 : W4 W (Proc.devRef .tc main_v29) = val_main_v29 (F := F) (W (Proc.devRef .tc main_arg0)) := by
  unfold W4 c4
  after_results
  simp only [st3_v27 W, st3_v29 W, st3_arg0 W, st3_arg1 W]
  try rfl

theorem st4_v32 : W4 W (Proc.devRef .tc main_v32) = val_main_v32 (F := F) (W (Proc.devRef .tc main_arg0)) (W (Proc.devRef .tc main_arg1)) := by
  unfold W4 c4
  after_results
  simp only [st3_v27 W, st3_v29 W, st3_arg0 W, st3_arg1 W]
  try rfl

theorem st4_v34 : W4 W (Proc.devRef .tc main_v34) = val_main_v34 (F := F) (W (Proc.devRef .tc main_arg0)) (W (Proc.devRef .tc main_arg1)) := by
  unfold W4 c4
  after_results
  simp only [st3_v27 W, st3_v29 W, st3_arg0 W, st3_arg1 W]
  try rfl

theorem st5_arg0 : W5 W (Proc.devRef .tc main_arg0) = W (Proc.devRef .tc main_arg0) := by
  unfold W5 c5
  after_results
  exact st4_arg0 W

theorem st5_arg1 : W5 W (Proc.devRef .tc main_arg1) = W (Proc.devRef .tc main_arg1) := by
  unfold W5 c5
  after_results
  exact st4_arg1 W

theorem st5_v32 : W5 W (Proc.devRef .tc main_v32) = val_main_v32 (F := F) (W (Proc.devRef .tc main_arg0)) (W (Proc.devRef .tc main_arg1)) := by
  unfold W5 c5
  after_results
  simp only [st4_v29 W, st4_v32 W, st4_v34 W, st4_arg0 W, st4_arg1 W]
  try rfl

theorem st5_v34 : W5 W (Proc.devRef .tc main_v34) = val_main_v34 (F := F) (W (Proc.devRef .tc main_arg0)) (W (Proc.devRef .tc main_arg1)) := by
  unfold W5 c5
  after_results
  simp only [st4_v29 W, st4_v32 W, st4_v34 W, st4_arg0 W, st4_arg1 W]
  try rfl

theorem st5_v48 : W5 W (Proc.devRef .tc main_v48) = val_main_v48 (F := F) (W (Proc.devRef .tc main_arg0)) := by
  unfold W5 c5
  after_results
  simp only [st4_v29 W, st4_v32 W, st4_v34 W, st4_arg0 W, st4_arg1 W]
  try rfl

theorem st6_arg0 : W6 W (Proc.devRef .tc main_arg0) = W (Proc.devRef .tc main_arg0) := by
  unfold W6 c6
  after_results
  exact st5_arg0 W

theorem st6_arg1 : W6 W (Proc.devRef .tc main_arg1) = W (Proc.devRef .tc main_arg1) := by
  unfold W6 c6
  after_results
  exact st5_arg1 W

theorem st6_v48 : W6 W (Proc.devRef .tc main_v48) = val_main_v48 (F := F) (W (Proc.devRef .tc main_arg0)) := by
  unfold W6 c6
  after_results
  simp only [st5_v32 W, st5_v34 W, st5_v48 W, st5_arg0 W, st5_arg1 W]
  try rfl

theorem st6_v50 : W6 W (Proc.devRef .tc main_v50) = val_main_v50 (F := F) (W (Proc.devRef .tc main_arg0)) (W (Proc.devRef .tc main_arg1)) := by
  unfold W6 c6
  after_results
  simp only [st5_v32 W, st5_v34 W, st5_v48 W, st5_arg0 W, st5_arg1 W]
  try rfl

theorem st6_v51 : W6 W (Proc.devRef .tc main_v51) = val_main_v51 (F := F) (W (Proc.devRef .tc main_arg0)) (W (Proc.devRef .tc main_arg1)) := by
  unfold W6 c6
  after_results
  simp only [st5_v32 W, st5_v34 W, st5_v48 W, st5_arg0 W, st5_arg1 W]
  try rfl

theorem st6_v56 : W6 W (Proc.devRef .tc main_v56) = val_main_v56 (F := F) (W (Proc.devRef .tc main_arg0)) (W (Proc.devRef .tc main_arg1)) := by
  unfold W6 c6
  after_results
  simp only [st5_v32 W, st5_v34 W, st5_v48 W, st5_arg0 W, st5_arg1 W]
  try rfl

theorem st7_arg0 : W7 W (Proc.devRef .tc main_arg0) = W (Proc.devRef .tc main_arg0) := by
  unfold W7 c7
  after_results
  exact st6_arg0 W

theorem st7_arg1 : W7 W (Proc.devRef .tc main_arg1) = W (Proc.devRef .tc main_arg1) := by
  unfold W7 c7
  after_results
  exact st6_arg1 W

theorem st7_v48 : W7 W (Proc.devRef .tc main_v48) = val_main_v48 (F := F) (W (Proc.devRef .tc main_arg0)) := by
  unfold W7 c7
  after_results
  simp only [st6_v48 W, st6_v50 W, st6_v51 W, st6_v56 W, st6_arg0 W, st6_arg1 W]
  try rfl

theorem st7_v51 : W7 W (Proc.devRef .tc main_v51) = val_main_v51 (F := F) (W (Proc.devRef .tc main_arg0)) (W (Proc.devRef .tc main_arg1)) := by
  unfold W7 c7
  after_results
  simp only [st6_v48 W, st6_v50 W, st6_v51 W, st6_v56 W, st6_arg0 W, st6_arg1 W]
  try rfl

theorem st7_v56 : W7 W (Proc.devRef .tc main_v56) = val_main_v56 (F := F) (W (Proc.devRef .tc main_arg0)) (W (Proc.devRef .tc main_arg1)) := by
  unfold W7 c7
  after_results
  simp only [st6_v48 W, st6_v50 W, st6_v51 W, st6_v56 W, st6_arg0 W, st6_arg1 W]
  try rfl

theorem st7_v61 : W7 W (Proc.devRef .tc main_v61) = val_main_v61 (F := F) (W (Proc.devRef .tc main_arg0)) (W (Proc.devRef .tc main_arg1)) := by
  unfold W7 c7
  after_results
  simp only [st6_v48 W, st6_v50 W, st6_v51 W, st6_v56 W, st6_arg0 W, st6_arg1 W]
  try rfl

theorem st8_arg0 : W8 W (Proc.devRef .tc main_arg0) = W (Proc.devRef .tc main_arg0) := by
  unfold W8 c8
  after_results
  exact st7_arg0 W

theorem st8_arg1 : W8 W (Proc.devRef .tc main_arg1) = W (Proc.devRef .tc main_arg1) := by
  unfold W8 c8
  after_results
  exact st7_arg1 W

theorem st8_v56 : W8 W (Proc.devRef .tc main_v56) = val_main_v56 (F := F) (W (Proc.devRef .tc main_arg0)) (W (Proc.devRef .tc main_arg1)) := by
  unfold W8 c8
  after_results
  simp only [st7_v48 W, st7_v51 W, st7_v56 W, st7_v61 W, st7_arg0 W, st7_arg1 W]
  try rfl

theorem st8_v61 : W8 W (Proc.devRef .tc main_v61) = val_main_v61 (F := F) (W (Proc.devRef .tc main_arg0)) (W (Proc.devRef .tc main_arg1)) := by
  unfold W8 c8
  after_results
  simp only [st7_v48 W, st7_v51 W, st7_v56 W, st7_v61 W, st7_arg0 W, st7_arg1 W]
  try rfl

theorem st8_v64 : W8 W (Proc.devRef .tc main_v64) = val_main_v64 (F := F) (W (Proc.devRef .tc main_arg0)) (W (Proc.devRef .tc main_arg1)) := by
  unfold W8 c8
  after_results
  simp only [st7_v48 W, st7_v51 W, st7_v56 W, st7_v61 W, st7_arg0 W, st7_arg1 W]
  try rfl

theorem st9_arg0 : W9 W (Proc.devRef .tc main_arg0) = W (Proc.devRef .tc main_arg0) := by
  unfold W9 c9
  after_results
  exact st8_arg0 W

theorem st9_arg1 : W9 W (Proc.devRef .tc main_arg1) = W (Proc.devRef .tc main_arg1) := by
  unfold W9 c9
  after_results
  exact st8_arg1 W

theorem st9_v56 : W9 W (Proc.devRef .tc main_v56) = val_main_v56 (F := F) (W (Proc.devRef .tc main_arg0)) (W (Proc.devRef .tc main_arg1)) := by
  unfold W9 c9
  after_results
  simp only [st8_v56 W, st8_v61 W, st8_v64 W, st8_arg0 W, st8_arg1 W]
  try rfl

theorem st9_v61 : W9 W (Proc.devRef .tc main_v61) = val_main_v61 (F := F) (W (Proc.devRef .tc main_arg0)) (W (Proc.devRef .tc main_arg1)) := by
  unfold W9 c9
  after_results
  simp only [st8_v56 W, st8_v61 W, st8_v64 W, st8_arg0 W, st8_arg1 W]
  try rfl

theorem st9_v68 : W9 W (Proc.devRef .tc main_v68) = val_main_v68 (F := F) (W (Proc.devRef .tc main_arg0)) (W (Proc.devRef .tc main_arg1)) := by
  unfold W9 c9
  after_results
  simp only [st8_v56 W, st8_v61 W, st8_v64 W, st8_arg0 W, st8_arg1 W]
  try rfl

theorem st10_arg0 : W10 W (Proc.devRef .tc main_arg0) = W (Proc.devRef .tc main_arg0) := by
  unfold W10 c10
  after_results
  exact st9_arg0 W

theorem st10_arg1 : W10 W (Proc.devRef .tc main_arg1) = W (Proc.devRef .tc main_arg1) := by
  unfold W10 c10
  after_results
  exact st9_arg1 W

theorem st10_v68 : W10 W (Proc.devRef .tc main_v68) = val_main_v68 (F := F) (W (Proc.devRef .tc main_arg0)) (W (Proc.devRef .tc main_arg1)) := by
  unfold W10 c10
  after_results
  simp only [st9_v56 W, st9_v61 W, st9_v68 W, st9_arg0 W, st9_arg1 W]
  try rfl

theorem st10_v71 : W10 W (Proc.devRef .tc main_v71) = val_main_v71 (F := F) (W (Proc.devRef .tc main_arg0)) (W (Proc.devRef .tc main_arg1)) := by
  unfold W10 c10
  after_results
  rw [st9_v56 W, st9_v61 W]
  rfl

theorem st11_arg0 : W11 W (Proc.devRef .tc main_arg0) = W (Proc.devRef .tc main_arg0) := by
  unfold W11 c11
  after_results
  exact st10_arg0 W

theorem st11_arg1 : W11 W (Proc.devRef .tc main_arg1) = W (Proc.devRef .tc main_arg1) := by
  unfold W11 c11
  after_results
  exact st10_arg1 W

theorem st11_v71 : W11 W (Proc.devRef .tc main_v71) = val_main_v71 (F := F) (W (Proc.devRef .tc main_arg0)) (W (Proc.devRef .tc main_arg1)) := by
  unfold W11 c11
  after_results
  simp only [st10_v68 W, st10_v71 W, st10_arg0 W, st10_arg1 W]
  try rfl

theorem st11_v77 : W11 W (Proc.devRef .tc main_v77) = val_main_v77 (F := F) (W (Proc.devRef .tc main_arg0)) (W (Proc.devRef .tc main_arg1)) := by
  unfold W11 c11
  after_results
  simp only [st10_v68 W, st10_v71 W, st10_arg0 W, st10_arg1 W]
  try rfl

theorem st12_arg0 : W12 W (Proc.devRef .tc main_arg0) = W (Proc.devRef .tc main_arg0) := by
  unfold W12 c12
  after_results
  exact st11_arg0 W

theorem st12_arg1 : W12 W (Proc.devRef .tc main_arg1) = W (Proc.devRef .tc main_arg1) := by
  unfold W12 c12
  after_results
  exact st11_arg1 W

theorem st12_v82 : W12 W (Proc.devRef .tc main_v82) = val_main_v82 (F := F) (W (Proc.devRef .tc main_arg0)) (W (Proc.devRef .tc main_arg1)) := by
  unfold W12 c12
  after_results
  simp only [st11_v71 W, st11_v77 W, st11_arg0 W, st11_arg1 W]
  try rfl

/-! ## The run -/

/-- Every weakly fair execution of the reference terminates with the result array at the last stage of the launch
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
          = val_main_v82 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v82).trans ((congrFun (after_ops (launchContents m c)) _).trans (st12_v82 (launchContents m c))),
       (h c main_arg0).trans ((congrFun (after_ops (launchContents m c)) _).trans (st12_arg0 (launchContents m c))),
       (h c main_arg1).trans ((congrFun (after_ops (launchContents m c)) _).trans (st12_arg1 (launchContents m c)))⟩)
    (run_seq scopedRefs_eq scopedSems_eq defs main (fun _ => ops) main_eq (fun _ => ops_sub) m ρ)

end Cert.ReferenceIdeal.Stages

end
-- ==== Proof.Spec.lean ====
/-
  The forward warp of a flow field, as functions of the two argument arrays.

  A pixel (b, y, x) of batch b moves to the rounded position (x - flow_x, y - flow_y). It HITS when that position lies
  inside the 544 x 960 image; a pixel that misses is sent to position (0, 0) with weight zero. Its flat target is
  x' + 960 y' + 522240 b, its weight is (1 if it hits, else 0) times its inverse depth, and its weighted flow is the flow
  times that weight. The three scatter sums over the targets are taken by the same host operation in both programs
  and are not opened here. From the three summed images a1 (flow x), a2 (flow y), a3 (weight) the result is
  a_c * ((a1 /= 0) * (1 / (a3 + 1e-7))) on channel c.
-/
import Idealize.ShloMosaic.PureOps.Ideal
import Idealize.ShloMosaic.Lib.ValueIdx

noncomputable section

namespace Cert.Warp

open Idealize.ShloMosaic Idealize.ShloMosaic.ValueIdx

abbrev SFlow : Shape := ⟨4, ![16, 2, 544, 960]⟩
abbrev SDepth : Shape := ⟨4, ![16, 1, 544, 960]⟩
abbrev SPix : Shape := ⟨3, ![16, 544, 960]⟩
abbrev SFlat : Shape := ⟨1, ![8355840]⟩

/-- A row or column number as the float both programs convert it to (a 32-bit counter read signed). -/
def pos (n : Nat) : EReal := (((BitVec.ofNat 32 n).toInt : ℝ) : EReal)

/-- The rounded target column and row of pixel (b, y, x). -/
def warpX (flow : SFlow.Idx → EReal) (b : Fin 16) (y : Fin 544) (x : Fin 960) : EReal :=
  Ideal.liftRound Ideal.roundHalfEven (pos x.val - flow (ix4 b 0 y x))
def warpY (flow : SFlow.Idx → EReal) (b : Fin 16) (y : Fin 544) (x : Fin 960) : EReal :=
  Ideal.liftRound Ideal.roundHalfEven (pos y.val - flow (ix4 b 1 y x))

/-- 0 <= rx < 960 and 0 <= ry < 544, as one bit. -/
def inRange (rx ry : EReal) : BitVec 1 :=
  IntOp.andi (IntOp.andi (IntOp.andi (Ideal.cmp .oge rx (Ideal.ofBits .f32 0x00000000#32))
      (Ideal.cmp .olt rx (Ideal.ofBits .f32 0x44700000#32)))
    (Ideal.cmp .oge ry (Ideal.ofBits .f32 0x00000000#32)))
    (Ideal.cmp .olt ry (Ideal.ofBits .f32 0x44080000#32))

/-- Whether pixel (b, y, x) lands inside the image. -/
def hit (flow : SFlow.Idx → EReal) (b : Fin 16) (y : Fin 544) (x : Fin 960) : BitVec 1 :=
  inRange (warpX flow b y x) (warpY flow b y x)

/-- The flat target of pixel (b, y, x): x' + 960 y' + 522240 b in 32-bit arithmetic, (x', y') = (0, 0) on a miss. -/
def target (flow : SFlow.Idx → EReal) (b : Fin 16) (y : Fin 544) (x : Fin 960) : BitVec 32 :=
  IntOp.addi
    (IntOp.addi (Ideal.fptosi 32 (Scalar.select (hit flow b y x) (warpX flow b y x) (Ideal.ofBits .f32 0x00000000#32)))
      (IntOp.muli (Ideal.fptosi 32 (Scalar.select (hit flow b y x) (warpY flow b y x) (Ideal.ofBits .f32 0x00000000#32))) 960#32))
    (IntOp.muli (BitVec.ofNat 32 b.val) 522240#32)

/-- The weight of pixel (b, y, x): its inverse depth if it hits, zero times it otherwise. -/
def weight (flow : SFlow.Idx → EReal) (depth : SDepth.Idx → EReal) (b : Fin 16) (y : Fin 544) (x : Fin 960) : EReal :=
  ((((hit flow b y x).setWidth 32 : BitVec 32).toInt : ℝ) : EReal) * depth (ix4 b 0 y x)

/-- The three images the first stage produces. -/
def idxG (flow : SFlow.Idx → EReal) : SPix.Idx → BitVec 32 := fun i => target flow (i 0) (i 1) (i 2)
def wtG (flow : SFlow.Idx → EReal) (depth : SDepth.Idx → EReal) : SPix.Idx → EReal := fun i => weight flow depth (i 0) (i 1) (i 2)
def wfG (flow : SFlow.Idx → EReal) (depth : SDepth.Idx → EReal) : SFlow.Idx → EReal :=
  fun i => flow i * weight flow depth (i 0) (i 2) (i 3)

theorem idxG_ix (flow : SFlow.Idx → EReal) (b : Fin 16) (y : Fin 544) (x : Fin 960) :
    idxG flow (ix3 b y x) = target flow b y x := rfl
theorem wtG_ix (flow : SFlow.Idx → EReal) (depth : SDepth.Idx → EReal) (b : Fin 16) (y : Fin 544) (x : Fin 960) :
    wtG flow depth (ix3 b y x) = weight flow depth b y x := rfl
theorem wfG_ix (flow : SFlow.Idx → EReal) (depth : SDepth.Idx → EReal) (b : Fin 16) (c : Fin 2) (y : Fin 544) (x : Fin 960) :
    wfG flow depth (ix4 b c y x) = flow (ix4 b c y x) * weight flow depth b y x := rfl

/-- The last stage on one pixel: the summed flow a times the mask (a1 /= 0) times 1 / (a3 + 1e-7). -/
def scaled (a a1 a3 : EReal) : EReal :=
  a * (((((Ideal.cmp .one a1 (Ideal.ofBits .f32 0x00000000#32)).setWidth 32 : BitVec 32).toInt : ℝ) : EReal)
    * Ideal.div (Ideal.ofBits .f32 0x3F800000#32) (a3 + Ideal.ofBits .f32 0x33D6BF95#32))

/-- The result image from the three summed images. -/
def normalize (a1 a2 a3 : SPix.Idx → EReal) : SFlow.Idx → EReal := fun i =>
  scaled (if (i 1).val = 0 then a1 (ix3 (i 0) (i 2) (i 3)) else a2 (ix3 (i 0) (i 2) (i 3)))
    (a1 (ix3 (i 0) (i 2) (i 3))) (a3 (ix3 (i 0) (i 2) (i 3)))

theorem normalize_ix0 (a1 a2 a3 : SPix.Idx → EReal) (b : Fin 16) (y : Fin 544) (x : Fin 960) :
    normalize a1 a2 a3 (ix4 b 0 y x) = scaled (a1 (ix3 b y x)) (a1 (ix3 b y x)) (a3 (ix3 b y x)) := rfl
theorem normalize_ix1 (a1 a2 a3 : SPix.Idx → EReal) (b : Fin 16) (y : Fin 544) (x : Fin 960) :
    normalize a1 a2 a3 (ix4 b 1 y x) = scaled (a2 (ix3 b y x)) (a1 (ix3 b y x)) (a3 (ix3 b y x)) := rfl

end Cert.Warp

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.PrepPixel.lean ====
/-
  The first kernel body on one pixel.

  At a grid point the body holds one batch entry: a block A of the flow, [1, 2, 544, 960], and a block D of the inverse
  depth, [1, 1, 544, 960]. Everything it computes is pointwise in (y, x): the rounded target column and row from the
  two channels of A at (y, x), the in-range bit, the flat target, the weight, the two weighted flows. Read at (y, x)
  each stored value is the pixel's quantity of the specification, as a function of the three loaded numbers
  A(0,0,y,x), A(0,1,y,x), D(0,0,y,x) and of the batch counter the body receives.
-/
import proofs.«104739_j16260746182799_1_alg».proof.Proof.KernelIdealFrame
import proofs.«104739_j16260746182799_1_alg».proof.Proof.Spec
import proofs.«104739_j16260746182799_1_alg».proof.Proof.LibUnitAxes
import Idealize.ShloMosaic.Lib.Pipeline.Value
import Idealize.ShloMosaic.Lib.ValueIdx
import Idealize.ShloMosaic.Lib.ValueLayout

noncomputable section

namespace Cert.Warp

open Cert.KernelIdeal Cert.KernelIdeal.Gen Cert.KernelIdeal.GenP Idealize.ShloMosaic Idealize.ShloMosaic.ValueIdx

/-! ## The pixel's quantities as functions of the loaded numbers -/

/-- A rounded target coordinate from a position number and a flow component. -/
def warp1 (p : Nat) (f : EReal) : EReal := Ideal.liftRound Ideal.roundHalfEven (pos p - f)

/-- The in-range bit of a pixel at column x, row y with flow (fx, fy). -/
def hitS (x y : Nat) (fx fy : EReal) : BitVec 1 := inRange (warp1 x fx) (warp1 y fy)

/-- Its flat target, the batch offset from the counter bb. -/
def targetS (bb : BitVec 32) (x y : Nat) (fx fy : EReal) : BitVec 32 :=
  IntOp.addi
    (IntOp.addi (Ideal.fptosi 32 (Scalar.select (hitS x y fx fy) (warp1 x fx) (Ideal.ofBits .f32 0x00000000#32)))
      (IntOp.muli (Ideal.fptosi 32 (Scalar.select (hitS x y fx fy) (warp1 y fy) (Ideal.ofBits .f32 0x00000000#32))) 960#32))
    (IntOp.muli bb 522240#32)

/-- Its weight from the inverse depth d. -/
def weightS (x y : Nat) (fx fy d : EReal) : EReal :=
  ((((hitS x y fx fy).setWidth 32 : BitVec 32).toInt : ℝ) : EReal) * d

theorem target_eq (flow : SFlow.Idx → EReal) (b : Fin 16) (y : Fin 544) (x : Fin 960) :
    target flow b y x = targetS (BitVec.ofNat 32 b.val) x.val y.val (flow (ix4 b 0 y x)) (flow (ix4 b 1 y x)) := rfl
theorem weight_eq (flow : SFlow.Idx → EReal) (depth : SDepth.Idx → EReal) (b : Fin 16) (y : Fin 544) (x : Fin 960) :
    weight flow depth b y x = weightS x.val y.val (flow (ix4 b 0 y x)) (flow (ix4 b 1 y x)) (depth (ix4 b 0 y x)) := rfl

/-! ## The two channel loads of the flow block -/

theorem ld_chan0 (A : Vec Ideal S1x2x544x960 .f32) (y : Fin 544) (x : Fin 960) :
    View.ld A r0_0 (ix4 (0 : Fin 1) (0 : Fin 1) y x) = A (ix4 (0 : Fin 1) (0 : Fin 2) y x) := by
  show A (r0_0.idx _) = _
  refine congrArg A (funext fun a => Fin.ext ?_)
  match a with
  | ⟨0, _⟩ => rfl
  | ⟨1, _⟩ => rfl
  | ⟨2, _⟩ => show 0 + 1 * y.val = y.val; omega
  | ⟨3, _⟩ => show 0 + 1 * x.val = x.val; omega

theorem ld_chan1 (A : Vec Ideal S1x2x544x960 .f32) (y : Fin 544) (x : Fin 960) :
    View.ld A r0_1 (ix4 (0 : Fin 1) (0 : Fin 1) y x) = A (ix4 (0 : Fin 1) (1 : Fin 2) y x) := by
  show A (r0_1.idx _) = _
  refine congrArg A (funext fun a => Fin.ext ?_)
  match a with
  | ⟨0, _⟩ => rfl
  | ⟨1, _⟩ => rfl
  | ⟨2, _⟩ => show 0 + 1 * y.val = y.val; omega
  | ⟨3, _⟩ => show 0 + 1 * x.val = x.val; omega

theorem ld_depth (D : Vec Ideal S1x1x544x960 .f32) (y : Fin 544) (x : Fin 960) :
    View.ld D r0_2 (ix4 (0 : Fin 1) (0 : Fin 1) y x) = D (ix4 (0 : Fin 1) (0 : Fin 1) y x) := by
  show D (r0_2.idx _) = _
  refine congrArg D (funext fun a => Fin.ext ?_)
  match a with
  | ⟨0, _⟩ => rfl
  | ⟨1, _⟩ => rfl
  | ⟨2, _⟩ => show 0 + 1 * y.val = y.val; omega
  | ⟨3, _⟩ => show 0 + 1 * x.val = x.val; omega

/-! ## The body's values at a pixel, over any loaded vectors -/

section Payloads
variable (v4 v6 v31 : Vec Ideal S1x1x544x960 .f32) (y : Fin 544) (x : Fin 960)

theorem pay5_at : k0_pay5 v4 (ix2 y x) = v4 (ix4 (0 : Fin 1) (0 : Fin 1) y x) :=
  Cert.LibUnitAxes.shapeCast_11ab_ab_apply v4 _ y x

theorem pay6_at : k0_pay6 v6 (ix2 y x) = v6 (ix4 (0 : Fin 1) (0 : Fin 1) y x) :=
  Cert.LibUnitAxes.shapeCast_11ab_ab_apply v6 _ y x

/-- The rounded target column: the column counter is its own coordinate. -/
theorem pay7_at : k0_pay7 v4 (ix2 y x) = warp1 x.val (v4 (ix4 (0 : Fin 1) (0 : Fin 1) y x)) := by
  show Ideal.liftRound Ideal.roundHalfEven
      ((((iota .tc S544x960 32 [1] iota_S544x960_d1_w32 (ix2 y x)).toInt : ℝ) : EReal) - k0_pay5 v4 (ix2 y x)) = _
  rw [pay5_at, iota_single_apply]
  rfl

/-- The rounded target row. -/
theorem pay8_at : k0_pay8 v6 (ix2 y x) = warp1 y.val (v6 (ix4 (0 : Fin 1) (0 : Fin 1) y x)) := by
  show Ideal.liftRound Ideal.roundHalfEven
      ((((iota .tc S544x960 32 [0] iota_S544x960_d0_w32 (ix2 y x)).toInt : ℝ) : EReal) - k0_pay6 v6 (ix2 y x)) = _
  rw [pay6_at, iota_single_apply]
  rfl

/-- The in-range bit. -/
theorem pay9_at : k0_pay9 v4 v6 (ix2 y x)
    = hitS x.val y.val (v4 (ix4 (0 : Fin 1) (0 : Fin 1) y x)) (v6 (ix4 (0 : Fin 1) (0 : Fin 1) y x)) := by
  show IntOp.andi (IntOp.andi (IntOp.andi
        (Ideal.cmp .oge (k0_pay7 v4 (ix2 y x)) (Ideal.ofBits .f32 0x00000000#32))
        (Ideal.cmp .olt (k0_pay7 v4 (ix2 y x)) (Ideal.ofBits .f32 0x44700000#32)))
        (Ideal.cmp .oge (k0_pay8 v6 (ix2 y x)) (Ideal.ofBits .f32 0x00000000#32)))
        (Ideal.cmp .olt (k0_pay8 v6 (ix2 y x)) (Ideal.ofBits .f32 0x44080000#32)) = _
  rw [pay7_at, pay8_at]
  rfl

theorem pay10_at : k0_pay10 v4 v6 (ix2 y x)
    = Ideal.fptosi 32 (Scalar.select (hitS x.val y.val (v4 (ix4 (0 : Fin 1) (0 : Fin 1) y x)) (v6 (ix4 (0 : Fin 1) (0 : Fin 1) y x)))
        (warp1 x.val (v4 (ix4 (0 : Fin 1) (0 : Fin 1) y x))) (Ideal.ofBits .f32 0x00000000#32)) := by
  show Ideal.fptosi 32 (Scalar.select (k0_pay9 v4 v6 (ix2 y x)) (k0_pay7 v4 (ix2 y x)) (Ideal.ofBits .f32 0x00000000#32)) = _
  rw [pay9_at, pay7_at]

theorem pay11_at : k0_pay11 v4 v6 (ix2 y x)
    = Ideal.fptosi 32 (Scalar.select (hitS x.val y.val (v4 (ix4 (0 : Fin 1) (0 : Fin 1) y x)) (v6 (ix4 (0 : Fin 1) (0 : Fin 1) y x)))
        (warp1 y.val (v6 (ix4 (0 : Fin 1) (0 : Fin 1) y x))) (Ideal.ofBits .f32 0x00000000#32)) := by
  show Ideal.fptosi 32 (Scalar.select (k0_pay9 v4 v6 (ix2 y x)) (k0_pay8 v6 (ix2 y x)) (Ideal.ofBits .f32 0x00000000#32)) = _
  rw [pay9_at, pay8_at]

/-- The weight. -/
theorem pay12_at : k0_pay12 v4 v6 v31 (ix2 y x)
    = weightS x.val y.val (v4 (ix4 (0 : Fin 1) (0 : Fin 1) y x)) (v6 (ix4 (0 : Fin 1) (0 : Fin 1) y x))
        (v31 (ix4 (0 : Fin 1) (0 : Fin 1) y x)) := by
  show (((((k0_pay9 v4 v6 (ix2 y x)).setWidth 32 : BitVec 32).toInt : ℝ)) : EReal)
      * shapeCast S544x960 v31 shapeCasts_S1x1x544x960_S544x960 (ix2 y x) = _
  rw [pay9_at, Cert.LibUnitAxes.shapeCast_11ab_ab_apply v31 _ y x]
  rfl

/-- The weighted first flow component. -/
theorem pay13_at : k0_pay13 v4 v6 v31 (ix2 y x)
    = v4 (ix4 (0 : Fin 1) (0 : Fin 1) y x)
      * weightS x.val y.val (v4 (ix4 (0 : Fin 1) (0 : Fin 1) y x)) (v6 (ix4 (0 : Fin 1) (0 : Fin 1) y x))
        (v31 (ix4 (0 : Fin 1) (0 : Fin 1) y x)) := by
  show k0_pay5 v4 (ix2 y x) * k0_pay12 v4 v6 v31 (ix2 y x) = _
  rw [pay5_at, pay12_at]

end Payloads

/-! ## The four stored values at a pixel of the block -/

section Stores
variable (bb : BitVec 32) (A : Vec Ideal S1x2x544x960 .f32) (D : Vec Ideal S1x1x544x960 .f32) (y : Fin 544) (x : Fin 960)

/-- The stored flat target. -/
theorem store_idx_at :
    k0_pay4 bb (k0_pay10 (View.ld A r0_0) (View.ld A r0_1)) (k0_pay11 (View.ld A r0_0) (View.ld A r0_1)) (ix3 (0 : Fin 1) y x)
      = targetS bb x.val y.val (A (ix4 (0 : Fin 1) (0 : Fin 2) y x)) (A (ix4 (0 : Fin 1) (1 : Fin 2) y x)) := by
  unfold k0_pay4
  refine (shapeCast_ab_1ab_apply _ _ (0 : Fin 1) y x).trans ?_
  show IntOp.addi (IntOp.addi (k0_pay10 (View.ld A r0_0) (View.ld A r0_1) (ix2 y x))
      (IntOp.muli (k0_pay11 (View.ld A r0_0) (View.ld A r0_1) (ix2 y x)) 960#32)) (IntOp.muli bb 522240#32) = _
  rw [pay10_at, pay11_at, ld_chan0, ld_chan1]
  rfl

/-- The stored weight. -/
theorem store_wt_at :
    k0_pay3 (k0_pay12 (View.ld A r0_0) (View.ld A r0_1) (View.ld D r0_2)) (ix3 (0 : Fin 1) y x)
      = weightS x.val y.val (A (ix4 (0 : Fin 1) (0 : Fin 2) y x)) (A (ix4 (0 : Fin 1) (1 : Fin 2) y x))
          (D (ix4 (0 : Fin 1) (0 : Fin 1) y x)) := by
  unfold k0_pay3
  refine (shapeCast_ab_1ab_apply _ _ (0 : Fin 1) y x).trans ?_
  rw [pay12_at, ld_chan0, ld_chan1, ld_depth]

/-- The stored weighted flow, first component. -/
theorem store_wf0_at :
    k0_pay1 (k0_pay13 (View.ld A r0_0) (View.ld A r0_1) (View.ld D r0_2)) (ix4 (0 : Fin 1) (0 : Fin 1) y x)
      = A (ix4 (0 : Fin 1) (0 : Fin 2) y x)
        * weightS x.val y.val (A (ix4 (0 : Fin 1) (0 : Fin 2) y x)) (A (ix4 (0 : Fin 1) (1 : Fin 2) y x))
          (D (ix4 (0 : Fin 1) (0 : Fin 1) y x)) := by
  unfold k0_pay1
  refine (Cert.LibUnitAxes.shapeCast_ab_11ab_apply _ _ (0 : Fin 1) (0 : Fin 1) y x).trans ?_
  rw [pay13_at, ld_chan0, ld_chan1, ld_depth]

/-- The stored weighted flow, second component. -/
theorem store_wf1_at :
    k0_pay2 (k0_pay6 (View.ld A r0_1)) (k0_pay12 (View.ld A r0_0) (View.ld A r0_1) (View.ld D r0_2)) (ix4 (0 : Fin 1) (0 : Fin 1) y x)
      = A (ix4 (0 : Fin 1) (1 : Fin 2) y x)
        * weightS x.val y.val (A (ix4 (0 : Fin 1) (0 : Fin 2) y x)) (A (ix4 (0 : Fin 1) (1 : Fin 2) y x))
          (D (ix4 (0 : Fin 1) (0 : Fin 1) y x)) := by
  unfold k0_pay2
  refine (Cert.LibUnitAxes.shapeCast_ab_11ab_apply _ _ (0 : Fin 1) (0 : Fin 1) y x).trans ?_
  show k0_pay6 (View.ld A r0_1) (ix2 y x) * k0_pay12 (View.ld A r0_0) (View.ld A r0_1) (View.ld D r0_2) (ix2 y x) = _
  rw [pay6_at, pay12_at, ld_chan0, ld_chan1, ld_depth]

end Stores

end Cert.Warp

end
-- ==== Proof.PrepValue.lean ====
/-
  The three images the first region leaves, as functions of the arrays it reads.

  The grid has one point per batch entry b. At point b each window's block is the b-th slab of its array, so a block
  element (0, .., y, x) sits in the array at (b, .., y, x); the body's stored values at that element are the pixel's
  quantities (the module on one pixel), with the batch counter equal to b. The sixteen slabs tile each output array,
  so after the region each output array IS the specification's image of the two input arrays.
-/
import proofs.«104739_j16260746182799_1_alg».proof.Proof.KernelIdealFrame
import proofs.«104739_j16260746182799_1_alg».proof.Proof.Spec
import proofs.«104739_j16260746182799_1_alg».proof.Proof.PrepPixel
import Idealize.ShloMosaic.Lib.Pipeline.Value
import Idealize.ShloMosaic.Lib.ValueIdx

set_option maxRecDepth 16384

noncomputable section

namespace Cert.Warp

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b)) (c : Dev nD)

theorem zeros3 : (![0, 0, 0] : Fin 3 → Nat) = fun _ => 0 := funext fun a => by fin_cases a <;> rfl

/-- A grid point of the first region is a batch number below 16. -/
theorem point_lt (t : Fin cfg0.N) : t.val < 16 := lt_of_lt_of_eq t.isLt N_0

/-- The printed index maps, decided over the sixteen points: the grid coordinate is the point, and every window's block
    index is (point, 0, ..., 0). -/
theorem point_facts : ∀ t : Fin cfg0.N,
    ((grid0.coords t) 0).val = t.val
    ∧ (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-! ## Where a block element sits in its array -/

theorem emb_flow (t : Fin cfg0.N) (ch : Fin 2) (y : Fin 544) (x : Fin 960) :
    ((cfg0.win 0).blk t).view.emb (ix4 (0 : Fin 1) ch y x) = ix4 (⟨t.val, point_lt t⟩ : Fin 16) ch y x := by
  obtain ⟨-, ⟨e0, e1, e2, e3⟩, -⟩ := point_facts t
  funext a; apply Fin.ext
  match a with
  | ⟨0, _⟩ => show win0_0.index t (0 : Fin 4) * 1 + 1 * (0 : Nat) = t.val; omega
  | ⟨1, _⟩ => show win0_0.index t (1 : Fin 4) * 2 + 1 * ch.val = ch.val; omega
  | ⟨2, _⟩ => show win0_0.index t (2 : Fin 4) * 544 + 1 * y.val = y.val; omega
  | ⟨3, _⟩ => show win0_0.index t (3 : Fin 4) * 960 + 1 * x.val = x.val; omega

theorem emb_depth (t : Fin cfg0.N) (y : Fin 544) (x : Fin 960) :
    ((cfg0.win 1).blk t).view.emb (ix4 (0 : Fin 1) (0 : Fin 1) y x) = ix4 (⟨t.val, point_lt t⟩ : Fin 16) (0 : Fin 1) y x := by
  obtain ⟨-, -, ⟨e0, e1, e2, e3⟩, -⟩ := point_facts t
  funext a; apply Fin.ext
  match a with
  | ⟨0, _⟩ => show win0_1.index t (0 : Fin 4) * 1 + 1 * (0 : Nat) = t.val; omega
  | ⟨1, _⟩ => show win0_1.index t (1 : Fin 4) * 1 + 1 * (0 : Nat) = 0; omega
  | ⟨2, _⟩ => show win0_1.index t (2 : Fin 4) * 544 + 1 * y.val = y.val; omega
  | ⟨3, _⟩ => show win0_1.index t (3 : Fin 4) * 960 + 1 * x.val = x.val; omega

theorem emb_idx (t : Fin cfg0.N) (y : Fin 544) (x : Fin 960) :
    ((cfg0.win 2).blk t).view.emb (ix3 (0 : Fin 1) y x) = ix3 (⟨t.val, point_lt t⟩ : Fin 16) y x := by
  obtain ⟨-, -, -, ⟨e0, e1, e2⟩, -⟩ := point_facts t
  funext a; apply Fin.ext
  match a with
  | ⟨0, _⟩ => show win0_2.index t (0 : Fin 3) * 1 + 1 * (0 : Nat) = t.val; omega
  | ⟨1, _⟩ => show win0_2.index t (1 : Fin 3) * 544 + 1 * y.val = y.val; omega
  | ⟨2, _⟩ => show win0_2.index t (2 : Fin 3) * 960 + 1 * x.val = x.val; omega

theorem emb_wt (t : Fin cfg0.N) (y : Fin 544) (x : Fin 960) :
    ((cfg0.win 3).blk t).view.emb (ix3 (0 : Fin 1) y x) = ix3 (⟨t.val, point_lt t⟩ : Fin 16) y x := by
  obtain ⟨-, -, -, -, ⟨e0, e1, e2⟩, -⟩ := point_facts t
  funext a; apply Fin.ext
  match a with
  | ⟨0, _⟩ => show win0_3.index t (0 : Fin 3) * 1 + 1 * (0 : Nat) = t.val; omega
  | ⟨1, _⟩ => show win0_3.index t (1 : Fin 3) * 544 + 1 * y.val = y.val; omega
  | ⟨2, _⟩ => show win0_3.index t (2 : Fin 3) * 960 + 1 * x.val = x.val; omega

theorem emb_wf (t : Fin cfg0.N) (ch : Fin 2) (y : Fin 544) (x : Fin 960) :
    ((cfg0.win 4).blk t).view.emb (ix4 (0 : Fin 1) ch y x) = ix4 (⟨t.val, point_lt t⟩ : Fin 16) ch y x := by
  obtain ⟨-, -, -, -, -, ⟨e0, e1, e2, e3⟩⟩ := point_facts t
  funext a; apply Fin.ext
  match a with
  | ⟨0, _⟩ => show win0_4.index t (0 : Fin 4) * 1 + 1 * (0 : Nat) = t.val; omega
  | ⟨1, _⟩ => show win0_4.index t (1 : Fin 4) * 2 + 1 * ch.val = ch.val; omega
  | ⟨2, _⟩ => show win0_4.index t (2 : Fin 4) * 544 + 1 * y.val = y.val; omega
  | ⟨3, _⟩ => show win0_4.index t (3 : Fin 4) * 960 + 1 * x.val = x.val; omega

/-- The flow block at a point, read at an element, is the flow array at the element's place. -/
theorem iblk_flow (t : Fin cfg0.N) (ch : Fin 2) (y : Fin 544) (x : Fin 960) :
    iblk0 V c 0 t (ix4 (0 : Fin 1) ch y x) = V c main_arg0 (ix4 (⟨t.val, point_lt t⟩ : Fin 16) ch y x) := by
  show V c main_arg0 (((cfg0.win 0).blk t).view.emb (ix4 (0 : Fin 1) ch y x)) = _
  rw [emb_flow]

theorem iblk_depth (t : Fin cfg0.N) (y : Fin 544) (x : Fin 960) :
    iblk0 V c 1 t (ix4 (0 : Fin 1) (0 : Fin 1) y x) = V c main_arg1 (ix4 (⟨t.val, point_lt t⟩ : Fin 16) (0 : Fin 1) y x) := by
  show V c main_arg1 (((cfg0.win 1).blk t).view.emb (ix4 (0 : Fin 1) (0 : Fin 1) y x)) = _
  rw [emb_depth]

/-- The batch counter the body receives at a point is the point. -/
theorem counter_eq (t : Fin cfg0.N) : BitVec.ofNat 32 ((grid0.coords t) 0).val = BitVec.ofNat 32 t.val := by
  rw [(point_facts t).1]

/-! ## What each point writes back -/

/-- The flat targets: block b of the specification's target image. -/
theorem flushed_idx (t : Fin cfg0.N) :
    (dat0 V c).flushed 2 t = ((cfg0.win 2).blk t).view.read (Elt Ideal) (idxG (V c main_arg0)) := by
  show (cfg0.win 2).cut (grid0.coords t) ((dat0 V c).after 2 t) = _
  rw [after0_2]
  unfold out0_2
  rw [View.canon_unit_zero zeros3]
  funext j
  obtain ⟨u, y, x, rfl⟩ : ∃ (u : Fin 1) (y : Fin 544) (x : Fin 960), j = ix3 u y x := ⟨j 0, j 1, j 2, eq_ix3 j⟩
  obtain rfl : u = 0 := Subsingleton.elim _ _
  show k0_pay4 (BitVec.ofNat 32 ((grid0.coords t) 0).val) (k0_pay10 (View.ld (iblk0 V c 0 t) r0_0) (View.ld (iblk0 V c 0 t) r0_1))
      (k0_pay11 (View.ld (iblk0 V c 0 t) r0_0) (View.ld (iblk0 V c 0 t) r0_1)) (ix3 (0 : Fin 1) y x)
    = idxG (V c main_arg0) (((cfg0.win 2).blk t).view.emb (ix3 (0 : Fin 1) y x))
  refine (store_idx_at _ (iblk0 V c 0 t) y x).trans ?_
  rw [emb_idx, idxG_ix, target_eq, iblk_flow, iblk_flow, counter_eq]

/-- The weights. -/
theorem flushed_wt (t : Fin cfg0.N) :
    (dat0 V c).flushed 3 t = ((cfg0.win 3).blk t).view.read (Elt Ideal) (wtG (V c main_arg0) (V c main_arg1)) := by
  show (cfg0.win 3).cut (grid0.coords t) ((dat0 V c).after 3 t) = _
  rw [after0_3]
  unfold out0_3
  rw [View.canon_unit_zero zeros3]
  funext j
  obtain ⟨u, y, x, rfl⟩ : ∃ (u : Fin 1) (y : Fin 544) (x : Fin 960), j = ix3 u y x := ⟨j 0, j 1, j 2, eq_ix3 j⟩
  obtain rfl : u = 0 := Subsingleton.elim _ _
  show k0_pay3 (k0_pay12 (View.ld (iblk0 V c 0 t) r0_0) (View.ld (iblk0 V c 0 t) r0_1) (View.ld (iblk0 V c 1 t) r0_2)) (ix3 (0 : Fin 1) y x)
    = wtG (V c main_arg0) (V c main_arg1) (((cfg0.win 3).blk t).view.emb (ix3 (0 : Fin 1) y x))
  refine (store_wt_at (iblk0 V c 0 t) (iblk0 V c 1 t) y x).trans ?_
  rw [emb_wt, wtG_ix, weight_eq, iblk_flow, iblk_flow, iblk_depth]

/-- Two stores, one per channel slab of a [1, 2, 544, 960] buffer, the second channel's store made last: an element of
    channel 1 reads the last store's value, an element of channel 0 the earlier store's. -/
theorem canon_chan1 (P1 P0 : Vec Ideal S1x1x544x960 .f32) (y : Fin 544) (x : Fin 960) :
    View.canon ([⟨r0_1, P1⟩, ⟨r0_0, P0⟩] : List (View.Piece (Elt Ideal) S1x2x544x960 .f32)) (ix4 (0 : Fin 1) (1 : Fin 2) y x)
      = P1 (ix4 (0 : Fin 1) (0 : Fin 1) y x) := by
  have he : ix4 (0 : Fin 1) (1 : Fin 2) y x = r0_1.emb (ix4 (0 : Fin 1) (0 : Fin 1) y x) := by
    funext a; apply Fin.ext
    match a with
    | ⟨0, _⟩ => rfl
    | ⟨1, _⟩ => rfl
    | ⟨2, _⟩ => show y.val = 0 + 1 * y.val; omega
    | ⟨3, _⟩ => show x.val = 0 + 1 * x.val; omega
  rw [he]
  exact View.canon_cons_emb r0_1 P1 _ _

theorem canon_chan0 (P1 P0 : Vec Ideal S1x1x544x960 .f32) (y : Fin 544) (x : Fin 960) :
    View.canon ([⟨r0_1, P1⟩, ⟨r0_0, P0⟩] : List (View.Piece (Elt Ideal) S1x2x544x960 .f32)) (ix4 (0 : Fin 1) (0 : Fin 2) y x)
      = P0 (ix4 (0 : Fin 1) (0 : Fin 1) y x) := by
  have hm : ix4 (0 : Fin 1) (0 : Fin 2) y x ∉ (⟨r0_1, P1⟩ : View.Piece (Elt Ideal) S1x2x544x960 .f32).1.set := by
    show ix4 (0 : Fin 1) (0 : Fin 2) y x ∉ r0_1.set
    rw [Rect.mem_set_unit]
    intro h
    exact absurd (show (1 : Nat) ≤ 0 from (h (1 : Fin 4)).1) (by omega)
  have he : ix4 (0 : Fin 1) (0 : Fin 2) y x = r0_0.emb (ix4 (0 : Fin 1) (0 : Fin 1) y x) := by
    funext a; apply Fin.ext
    match a with
    | ⟨0, _⟩ => rfl
    | ⟨1, _⟩ => rfl
    | ⟨2, _⟩ => show y.val = 0 + 1 * y.val; omega
    | ⟨3, _⟩ => show x.val = 0 + 1 * x.val; omega
  rw [View.canon_cons_of_not_mem _ _ hm, he]
  exact View.canon_cons_emb r0_0 P0 _ _

/-- The weighted flows: the block's two channel slabs, each stored by its own rectangle. -/
theorem flushed_wf (t : Fin cfg0.N) :
    (dat0 V c).flushed 4 t = ((cfg0.win 4).blk t).view.read (Elt Ideal) (wfG (V c main_arg0) (V c main_arg1)) := by
  show (cfg0.win 4).cut (grid0.coords t) ((dat0 V c).after 4 t) = _
  rw [after0_4]
  unfold out0_4
  funext j
  obtain ⟨u, ch, y, x, rfl⟩ : ∃ (u : Fin 1) (ch : Fin 2) (y : Fin 544) (x : Fin 960), j = ix4 u ch y x :=
    ⟨j 0, j 1, j 2, j 3, eq_ix4 j⟩
  obtain rfl : u = 0 := Subsingleton.elim _ _
  show View.canon ([⟨r0_1, _⟩, ⟨r0_0, _⟩] : List (View.Piece (Elt Ideal) S1x2x544x960 .f32)) (ix4 (0 : Fin 1) ch y x)
    = wfG (V c main_arg0) (V c main_arg1) (((cfg0.win 4).blk t).view.emb (ix4 (0 : Fin 1) ch y x))
  rw [emb_wf, wfG_ix, weight_eq]
  match ch with
  | ⟨0, _⟩ =>
    refine (canon_chan0 _ _ y x).trans ?_
    refine (store_wf0_at (iblk0 V c 0 t) (iblk0 V c 1 t) y x).trans ?_
    rw [iblk_flow, iblk_flow, iblk_depth]
    rfl
  | ⟨1, _⟩ =>
    refine (canon_chan1 _ _ y x).trans ?_
    refine (store_wf1_at (iblk0 V c 0 t) (iblk0 V c 1 t) y x).trans ?_
    rw [iblk_flow, iblk_flow, iblk_depth]
    rfl

/-! ## The slabs tile each output array -/

theorem mem_blk_idx (t : Fin cfg0.N) (i : S16x544x960.Idx) :
    i ∈ ((cfg0.win 2).blk t).view.set ↔ ∀ a : Fin 3, win0_2.index t a * S1x544x960.size a ≤ (i a).val
      ∧ (i a).val < win0_2.index t a * S1x544x960.size a + S1x544x960.size a := by
  show i ∈ ((View.whole main_v0_0).slice (win0_2.rect t)).set ↔ _
  rw [View.set_slice_whole, Rect.mem_set_unit]
  exact Iff.rfl

theorem mem_blk_wt (t : Fin cfg0.N) (i : S16x544x960.Idx) :
    i ∈ ((cfg0.win 3).blk t).view.set ↔ ∀ a : Fin 3, win0_3.index t a * S1x544x960.size a ≤ (i a).val
      ∧ (i a).val < win0_3.index t a * S1x544x960.size a + S1x544x960.size a := by
  show i ∈ ((View.whole main_v0_1).slice (win0_3.rect t)).set ↔ _
  rw [View.set_slice_whole, Rect.mem_set_unit]
  exact Iff.rfl

theorem mem_blk_wf (t : Fin cfg0.N) (i : S16x2x544x960.Idx) :
    i ∈ ((cfg0.win 4).blk t).view.set ↔ ∀ a : Fin 4, win0_4.index t a * S1x2x544x960.size a ≤ (i a).val
      ∧ (i a).val < win0_4.index t a * S1x2x544x960.size a + S1x2x544x960.size a := by
  show i ∈ ((View.whole main_v0_2).slice (win0_4.rect t)).set ↔ _
  rw [View.set_slice_whole, Rect.mem_set_unit]
  exact Iff.rfl

theorem cover_idx (i : S16x544x960.Idx) :
    ∃ t : Fin cfg0.N, (cfg0.win 2).flush t = true ∧ i ∈ ((cfg0.win 2).blk t).view.set := by
  have h0 : (i 0).val < 16 := (i 0).isLt
  have h1 : (i 1).val < 544 := (i 1).isLt
  have h2 : (i 2).val < 960 := (i 2).isLt
  have hN : (i 0).val < cfg0.N := lt_of_lt_of_eq h0 N_0.symm
  obtain ⟨-, -, -, ⟨e0, e1, e2⟩, -⟩ := point_facts ⟨(i 0).val, hN⟩
  refine ⟨⟨(i 0).val, hN⟩, flush0_2 _, ?_⟩
  rw [mem_blk_idx]
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; rw [e0]; show (i 0).val * 1 ≤ (i 0).val ∧ (i 0).val < (i 0).val * 1 + 1; omega
  | ⟨1, _⟩ => show win0_2.index ⟨(i 0).val, hN⟩ (1 : Fin 3) * 544 ≤ (i 1).val ∧ (i 1).val < win0_2.index ⟨(i 0).val, hN⟩ (1 : Fin 3) * 544 + 544; rw [e1]; omega
  | ⟨2, _⟩ => show win0_2.index ⟨(i 0).val, hN⟩ (2 : Fin 3) * 960 ≤ (i 2).val ∧ (i 2).val < win0_2.index ⟨(i 0).val, hN⟩ (2 : Fin 3) * 960 + 960; rw [e2]; omega

theorem cover_wt (i : S16x544x960.Idx) :
    ∃ t : Fin cfg0.N, (cfg0.win 3).flush t = true ∧ i ∈ ((cfg0.win 3).blk t).view.set := by
  have h0 : (i 0).val < 16 := (i 0).isLt
  have h1 : (i 1).val < 544 := (i 1).isLt
  have h2 : (i 2).val < 960 := (i 2).isLt
  have hN : (i 0).val < cfg0.N := lt_of_lt_of_eq h0 N_0.symm
  obtain ⟨-, -, -, -, ⟨e0, e1, e2⟩, -⟩ := point_facts ⟨(i 0).val, hN⟩
  refine ⟨⟨(i 0).val, hN⟩, flush0_3 _, ?_⟩
  rw [mem_blk_wt]
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; rw [e0]; show (i 0).val * 1 ≤ (i 0).val ∧ (i 0).val < (i 0).val * 1 + 1; omega
  | ⟨1, _⟩ => show win0_3.index ⟨(i 0).val, hN⟩ (1 : Fin 3) * 544 ≤ (i 1).val ∧ (i 1).val < win0_3.index ⟨(i 0).val, hN⟩ (1 : Fin 3) * 544 + 544; rw [e1]; omega
  | ⟨2, _⟩ => show win0_3.index ⟨(i 0).val, hN⟩ (2 : Fin 3) * 960 ≤ (i 2).val ∧ (i 2).val < win0_3.index ⟨(i 0).val, hN⟩ (2 : Fin 3) * 960 + 960; rw [e2]; omega

theorem cover_wf (i : S16x2x544x960.Idx) :
    ∃ t : Fin cfg0.N, (cfg0.win 4).flush t = true ∧ i ∈ ((cfg0.win 4).blk t).view.set := by
  have h0 : (i 0).val < 16 := (i 0).isLt
  have h1 : (i 1).val < 2 := (i 1).isLt
  have h2 : (i 2).val < 544 := (i 2).isLt
  have h3 : (i 3).val < 960 := (i 3).isLt
  have hN : (i 0).val < cfg0.N := lt_of_lt_of_eq h0 N_0.symm
  obtain ⟨-, -, -, -, -, ⟨e0, e1, e2, e3⟩⟩ := point_facts ⟨(i 0).val, hN⟩
  refine ⟨⟨(i 0).val, hN⟩, flush0_4 _, ?_⟩
  rw [mem_blk_wf]
  intro a
  match a with
  | ⟨0, _⟩ => show win0_4.index ⟨(i 0).val, hN⟩ (0 : Fin 4) * 1 ≤ (i 0).val ∧ (i 0).val < win0_4.index ⟨(i 0).val, hN⟩ (0 : Fin 4) * 1 + 1; rw [e0]; show (i 0).val * 1 ≤ (i 0).val ∧ (i 0).val < (i 0).val * 1 + 1; omega
  | ⟨1, _⟩ => show win0_4.index ⟨(i 0).val, hN⟩ (1 : Fin 4) * 2 ≤ (i 1).val ∧ (i 1).val < win0_4.index ⟨(i 0).val, hN⟩ (1 : Fin 4) * 2 + 2; rw [e1]; omega
  | ⟨2, _⟩ => show win0_4.index ⟨(i 0).val, hN⟩ (2 : Fin 4) * 544 ≤ (i 2).val ∧ (i 2).val < win0_4.index ⟨(i 0).val, hN⟩ (2 : Fin 4) * 544 + 544; rw [e2]; omega
  | ⟨3, _⟩ => show win0_4.index ⟨(i 0).val, hN⟩ (3 : Fin 4) * 960 ≤ (i 3).val ∧ (i 3).val < win0_4.index ⟨(i 0).val, hN⟩ (3 : Fin 4) * 960 + 960; rw [e3]; omega

/-! ## The three arrays after the region -/

theorem prep_idx : (dat0 V c).arrAt 2 cfg0.N = idxG (V c main_arg0) :=
  (dat0 V c).arrAt_eq_of_cover 2 (idxG (V c main_arg0)) (fun t _ => flushed_idx V c t) cover_idx

theorem prep_wt : (dat0 V c).arrAt 3 cfg0.N = wtG (V c main_arg0) (V c main_arg1) :=
  (dat0 V c).arrAt_eq_of_cover 3 (wtG (V c main_arg0) (V c main_arg1)) (fun t _ => flushed_wt V c t) cover_wt

theorem prep_wf : (dat0 V c).arrAt 4 cfg0.N = wfG (V c main_arg0) (V c main_arg1) :=
  (dat0 V c).arrAt_eq_of_cover 4 (wfG (V c main_arg0) (V c main_arg1)) (fun t _ => flushed_wf V c t) cover_wf

end Cert.Warp

end
-- ==== Proof.MidValue.lean ====
/-
  Between the two regions: the three scatter sums, as terms over the first region's images.

  The host reshapes the target image to a flat list, transposes and reshapes the weighted flow to two flat rows, reshapes
  the weights flat, scatter-adds each of the three flat lists at the targets into zeros, and reshapes the sums back to
  images. With the first region's three images known, each summed image the second region reads is that chain of the
  specification's images. The scatter sums themselves stay closed.
-/
import proofs.«104739_j16260746182799_1_alg».proof.Proof.KernelIdealFrame
import proofs.«104739_j16260746182799_1_alg».proof.Proof.Spec
import proofs.«104739_j16260746182799_1_alg».proof.Proof.PrepValue
import Idealize.ShloMosaic.Lib.StableHlo.Run

set_option maxRecDepth 16384

noncomputable section

namespace Cert.Warp.Mid

open Cert.KernelIdeal Cert.KernelIdeal.Gen Cert.KernelIdeal.GenP Idealize.ShloMosaic
open Idealize.ShloMosaic.TcCoe Idealize.SL.Sem Idealize.ShloMosaic.StableHlo

variable (m : (ℓ : Loc nD τ sig) → Buf (Elt Ideal) ℓ) (ρ : Dev nD → PrngReg) (c : Dev nD)

/-- The first region's images, where the host operations find them. -/
theorem entry_idx : W1 m ρ c (Proc.devRef .tc main_v0_0) = idxG (m ((c.tc : Thread nD τ).loc main_arg0)) :=
  (W1_arr m ρ c 2).trans (prep_idx (V0 m ρ) c)
theorem entry_wt : W1 m ρ c (Proc.devRef .tc main_v0_1)
    = wtG (m ((c.tc : Thread nD τ).loc main_arg0)) (m ((c.tc : Thread nD τ).loc main_arg1)) :=
  (W1_arr m ρ c 3).trans (prep_wt (V0 m ρ) c)
theorem entry_wf : W1 m ρ c (Proc.devRef .tc main_v0_2)
    = wfG (m ((c.tc : Thread nD τ).loc main_arg0)) (m ((c.tc : Thread nD τ).loc main_arg1)) :=
  (W1_arr m ρ c 4).trans (prep_wf (V0 m ρ) c)

/-- A flat row of the weighted flow: channel `k`'s row of the transposed, flattened image. -/
def flowRow (off : Fin 2 → Nat) (hs : S2x8355840.Slices off S1x8355840) (wf : S16x2x544x960.Idx → EReal) : S8355840.Idx → EReal :=
  shapeCast S8355840 (extractStridedSlice S1x8355840 off
    (shapeCast S2x8355840 (transpose S2x16x544x960 [1, 0, 2, 3] wf transposes_S16x2x544x960_S2x16x544x960_1_0_2_3)
      shapeCasts_S2x16x544x960_S2x8355840) hs) shapeCasts_S1x8355840_S8355840

/-- The scatter sum of a flat list at the flattened targets, into zeros, as an image. -/
def summed (idx : S16x544x960.Idx → BitVec 32) (u : S8355840.Idx → EReal) : S16x544x960.Idx → EReal :=
  shapeCast S16x544x960
    (Host.scatterAdd (F := Ideal) scatter_S8355840_S8355840x1_S8355840_n_0_0_1
      (broadcastInDim S8355840 ![] bcast_S_S8355840 (constant (F := Ideal) S_ .f32 0x00000000#32))
      (broadcastInDim S8355840x1 ![0] bcast_S8355840_S8355840x1_0 (shapeCast S8355840 idx shapeCasts_S16x544x960_S8355840))
      u) shapeCasts_S8355840_S16x544x960

/-- The summed first flow component, as the second region finds it. -/
theorem mid_v10 : V2 m ρ c main_v10
    = summed (idxG (m ((c.tc : Thread nD τ).loc main_arg0)))
        (flowRow ![0, 0] slices_S2x8355840_S1x8355840_0_0
          (wfG (m ((c.tc : Thread nD τ).loc main_arg0)) (m ((c.tc : Thread nD τ).loc main_arg1)))) := by
  show StableHlo.after hostOps1 (W1 m ρ c) (Proc.devRef .tc main_v10) = _
  after_results
  rw [entry_idx, entry_wf]
  rfl

/-- The summed second flow component. -/
theorem mid_v16 : V2 m ρ c main_v16
    = summed (idxG (m ((c.tc : Thread nD τ).loc main_arg0)))
        (flowRow ![1, 0] slices_S2x8355840_S1x8355840_1_0
          (wfG (m ((c.tc : Thread nD τ).loc main_arg0)) (m ((c.tc : Thread nD τ).loc main_arg1)))) := by
  show StableHlo.after hostOps1 (W1 m ρ c) (Proc.devRef .tc main_v16) = _
  after_results
  rw [entry_idx, entry_wf]
  rfl

/-- The summed weight. -/
theorem mid_v20 : V2 m ρ c main_v20
    = summed (idxG (m ((c.tc : Thread nD τ).loc main_arg0)))
        (shapeCast S8355840 (wtG (m ((c.tc : Thread nD τ).loc main_arg0)) (m ((c.tc : Thread nD τ).loc main_arg1)))
          shapeCasts_S16x544x960_S8355840) := by
  show StableHlo.after hostOps1 (W1 m ρ c) (Proc.devRef .tc main_v20) = _
  after_results
  rw [entry_idx, entry_wt]
  rfl

end Cert.Warp.Mid

end
-- ==== Proof.PostValue.lean ====
/-
  The result image the second region leaves, as a function of the three summed images it reads.

  At grid point b the body holds slab b of the three summed images and writes slab b of the result: on channel 0 the
  summed first flow component times the mask (it is nonzero) times 1 / (summed weight + 1e-7), on channel 1 the summed
  second component times the same factor. Pointwise in (y, x); the sixteen slabs tile the result array.
-/
import proofs.«104739_j16260746182799_1_alg».proof.Proof.KernelIdealFrame
import proofs.«104739_j16260746182799_1_alg».proof.Proof.Spec
import proofs.«104739_j16260746182799_1_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.Warp.Post

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat Cfg Window)

/-! ## The body on one pixel -/

section Pixel
variable (v0 v2 v4 : Vec Ideal S1x544x960 .f32) (y : Fin 544) (x : Fin 960)

theorem pay1_at : k1_pay1 v0 (ix2 y x) = v0 (ix3 (0 : Fin 1) y x) :=
  shapeCast_1ab_ab_apply v0 _ y x

/-- The common factor: the mask of a nonzero first sum times the reciprocal of the shifted weight sum. -/
theorem pay2_at : k1_pay2 v0 v4 (ix2 y x)
    = ((((Ideal.cmp .one (v0 (ix3 (0 : Fin 1) y x)) (Ideal.ofBits .f32 0x00000000#32)).setWidth 32 : BitVec 32).toInt : ℝ) : EReal)
      * Ideal.div (Ideal.ofBits .f32 0x3F800000#32) (v4 (ix3 (0 : Fin 1) y x) + Ideal.ofBits .f32 0x33D6BF95#32) := by
  show ((((Ideal.cmp .one (k1_pay1 v0 (ix2 y x)) (Ideal.ofBits .f32 0x00000000#32)).setWidth 32 : BitVec 32).toInt : ℝ) : EReal)
      * Ideal.div (Ideal.ofBits .f32 0x3F800000#32)
          (shapeCast S544x960 v4 shapeCasts_S1x544x960_S544x960 (ix2 y x) + Ideal.ofBits .f32 0x33D6BF95#32) = _
  rw [pay1_at, shapeCast_1ab_ab_apply v4 _ y x]

theorem store0_at : k1_pay3 v0 v4 (ix4 (0 : Fin 1) (0 : Fin 1) y x)
    = scaled (v0 (ix3 (0 : Fin 1) y x)) (v0 (ix3 (0 : Fin 1) y x)) (v4 (ix3 (0 : Fin 1) y x)) := by
  unfold k1_pay3
  refine (Cert.LibUnitAxes.shapeCast_ab_11ab_apply _ _ (0 : Fin 1) (0 : Fin 1) y x).trans ?_
  show k1_pay1 v0 (ix2 y x) * k1_pay2 v0 v4 (ix2 y x) = _
  rw [pay1_at, pay2_at]
  rfl

theorem store1_at : k1_pay4 v0 v2 v4 (ix4 (0 : Fin 1) (0 : Fin 1) y x)
    = scaled (v2 (ix3 (0 : Fin 1) y x)) (v0 (ix3 (0 : Fin 1) y x)) (v4 (ix3 (0 : Fin 1) y x)) := by
  unfold k1_pay4
  refine (Cert.LibUnitAxes.shapeCast_ab_11ab_apply _ _ (0 : Fin 1) (0 : Fin 1) y x).trans ?_
  show shapeCast S544x960 v2 shapeCasts_S1x544x960_S544x960 (ix2 y x) * k1_pay2 v0 v4 (ix2 y x) = _
  rw [shapeCast_1ab_ab_apply v2 _ y x, pay2_at]
  rfl

end Pixel

/-! ## Slabs -/

variable (V : (c : Dev nD) → (b : Ref sig .tc) → Buf (Elt Ideal) ((c : Thread nD τ).loc b)) (c : Dev nD)

theorem zeros3 : (![0, 0, 0] : Fin 3 → Nat) = fun _ => 0 := funext fun a => by fin_cases a <;> rfl

theorem point_lt (t : Fin cfg1.N) : t.val < 16 := lt_of_lt_of_eq t.isLt N_1

/-- The printed index maps, decided over the sixteen points: every window's block index is (point, 0, ..., 0). -/
theorem point_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

theorem emb_in0 (t : Fin cfg1.N) (y : Fin 544) (x : Fin 960) :
    ((cfg1.win 0).blk t).view.emb (ix3 (0 : Fin 1) y x) = ix3 (⟨t.val, point_lt t⟩ : Fin 16) y x := by
  obtain ⟨⟨e0, e1, e2⟩, -⟩ := point_facts t
  funext a; apply Fin.ext
  match a with
  | ⟨0, _⟩ => show win1_0.index t (0 : Fin 3) * 1 + 1 * (0 : Nat) = t.val; omega
  | ⟨1, _⟩ => show win1_0.index t (1 : Fin 3) * 544 + 1 * y.val = y.val; omega
  | ⟨2, _⟩ => show win1_0.index t (2 : Fin 3) * 960 + 1 * x.val = x.val; omega

theorem emb_in1 (t : Fin cfg1.N) (y : Fin 544) (x : Fin 960) :
    ((cfg1.win 1).blk t).view.emb (ix3 (0 : Fin 1) y x) = ix3 (⟨t.val, point_lt t⟩ : Fin 16) y x := by
  obtain ⟨-, ⟨e0, e1, e2⟩, -⟩ := point_facts t
  funext a; apply Fin.ext
  match a with
  | ⟨0, _⟩ => show win1_1.index t (0 : Fin 3) * 1 + 1 * (0 : Nat) = t.val; omega
  | ⟨1, _⟩ => show win1_1.index t (1 : Fin 3) * 544 + 1 * y.val = y.val; omega
  | ⟨2, _⟩ => show win1_1.index t (2 : Fin 3) * 960 + 1 * x.val = x.val; omega

theorem emb_in2 (t : Fin cfg1.N) (y : Fin 544) (x : Fin 960) :
    ((cfg1.win 2).blk t).view.emb (ix3 (0 : Fin 1) y x) = ix3 (⟨t.val, point_lt t⟩ : Fin 16) y x := by
  obtain ⟨-, -, ⟨e0, e1, e2⟩, -⟩ := point_facts t
  funext a; apply Fin.ext
  match a with
  | ⟨0, _⟩ => show win1_2.index t (0 : Fin 3) * 1 + 1 * (0 : Nat) = t.val; omega
  | ⟨1, _⟩ => show win1_2.index t (1 : Fin 3) * 544 + 1 * y.val = y.val; omega
  | ⟨2, _⟩ => show win1_2.index t (2 : Fin 3) * 960 + 1 * x.val = x.val; omega

theorem emb_out (t : Fin cfg1.N) (ch : Fin 2) (y : Fin 544) (x : Fin 960) :
    ((cfg1.win 3).blk t).view.emb (ix4 (0 : Fin 1) ch y x) = ix4 (⟨t.val, point_lt t⟩ : Fin 16) ch y x := by
  obtain ⟨-, -, -, ⟨e0, e1, e2, e3⟩⟩ := point_facts t
  funext a; apply Fin.ext
  match a with
  | ⟨0, _⟩ => show win1_3.index t (0 : Fin 4) * 1 + 1 * (0 : Nat) = t.val; omega
  | ⟨1, _⟩ => show win1_3.index t (1 : Fin 4) * 2 + 1 * ch.val = ch.val; omega
  | ⟨2, _⟩ => show win1_3.index t (2 : Fin 4) * 544 + 1 * y.val = y.val; omega
  | ⟨3, _⟩ => show win1_3.index t (3 : Fin 4) * 960 + 1 * x.val = x.val; omega

theorem iblk_in0 (t : Fin cfg1.N) (y : Fin 544) (x : Fin 960) :
    iblk1 V c 0 t (ix3 (0 : Fin 1) y x) = V c main_v10 (ix3 (⟨t.val, point_lt t⟩ : Fin 16) y x) := by
  show V c main_v10 (((cfg1.win 0).blk t).view.emb (ix3 (0 : Fin 1) y x)) = _
  rw [emb_in0]
theorem iblk_in1 (t : Fin cfg1.N) (y : Fin 544) (x : Fin 960) :
    iblk1 V c 1 t (ix3 (0 : Fin 1) y x) = V c main_v16 (ix3 (⟨t.val, point_lt t⟩ : Fin 16) y x) := by
  show V c main_v16 (((cfg1.win 1).blk t).view.emb (ix3 (0 : Fin 1) y x)) = _
  rw [emb_in1]
theorem iblk_in2 (t : Fin cfg1.N) (y : Fin 544) (x : Fin 960) :
    iblk1 V c 2 t (ix3 (0 : Fin 1) y x) = V c main_v20 (ix3 (⟨t.val, point_lt t⟩ : Fin 16) y x) := by
  show V c main_v20 (((cfg1.win 2).blk t).view.emb (ix3 (0 : Fin 1) y x)) = _
  rw [emb_in2]

/-- Two stores, one per channel slab of the [1, 2, 544, 960] buffer, channel 1's made last. -/
theorem canon_chan1 (P1 P0 : Vec Ideal S1x1x544x960 .f32) (y : Fin 544) (x : Fin 960) :
    View.canon ([⟨r1_2, P1⟩, ⟨r1_1, P0⟩] : List (View.Piece (Elt Ideal) S1x2x544x960 .f32)) (ix4 (0 : Fin 1) (1 : Fin 2) y x)
      = P1 (ix4 (0 : Fin 1) (0 : Fin 1) y x) := by
  have he : ix4 (0 : Fin 1) (1 : Fin 2) y x = r1_2.emb (ix4 (0 : Fin 1) (0 : Fin 1) y x) := by
    funext a; apply Fin.ext
    match a with
    | ⟨0, _⟩ => rfl
    | ⟨1, _⟩ => rfl
    | ⟨2, _⟩ => show y.val = 0 + 1 * y.val; omega
    | ⟨3, _⟩ => show x.val = 0 + 1 * x.val; omega
  rw [he]
  exact View.canon_cons_emb r1_2 P1 _ _

theorem canon_chan0 (P1 P0 : Vec Ideal S1x1x544x960 .f32) (y : Fin 544) (x : Fin 960) :
    View.canon ([⟨r1_2, P1⟩, ⟨r1_1, P0⟩] : List (View.Piece (Elt Ideal) S1x2x544x960 .f32)) (ix4 (0 : Fin 1) (0 : Fin 2) y x)
      = P0 (ix4 (0 : Fin 1) (0 : Fin 1) y x) := by
  have hm : ix4 (0 : Fin 1) (0 : Fin 2) y x ∉ (⟨r1_2, P1⟩ : View.Piece (Elt Ideal) S1x2x544x960 .f32).1.set := by
    show ix4 (0 : Fin 1) (0 : Fin 2) y x ∉ r1_2.set
    rw [Rect.mem_set_unit]
    intro h
    exact absurd (show (1 : Nat) ≤ 0 from (h (1 : Fin 4)).1) (by omega)
  have he : ix4 (0 : Fin 1) (0 : Fin 2) y x = r1_1.emb (ix4 (0 : Fin 1) (0 : Fin 1) y x) := by
    funext a; apply Fin.ext
    match a with
    | ⟨0, _⟩ => rfl
    | ⟨1, _⟩ => rfl
    | ⟨2, _⟩ => show y.val = 0 + 1 * y.val; omega
    | ⟨3, _⟩ => show x.val = 0 + 1 * x.val; omega
  rw [View.canon_cons_of_not_mem _ _ hm, he]
  exact View.canon_cons_emb r1_1 P0 _ _

/-- What point b writes back: slab b of the specification's result image of the three arrays the region reads. -/
theorem flushed_out (t : Fin cfg1.N) :
    (dat1 V c).flushed 3 t
      = ((cfg1.win 3).blk t).view.read (Elt Ideal) (normalize (V c main_v10) (V c main_v16) (V c main_v20)) := by
  show (cfg1.win 3).cut (grid1.coords t) ((dat1 V c).after 3 t) = _
  rw [after1_3]
  unfold out1_3
  simp only [View.ld_unit_zero (S := S1x544x960) zeros3]
  funext j
  obtain ⟨u, ch, y, x, rfl⟩ : ∃ (u : Fin 1) (ch : Fin 2) (y : Fin 544) (x : Fin 960), j = ix4 u ch y x :=
    ⟨j 0, j 1, j 2, j 3, eq_ix4 j⟩
  obtain rfl : u = 0 := Subsingleton.elim _ _
  show View.canon ([⟨r1_2, _⟩, ⟨r1_1, _⟩] : List (View.Piece (Elt Ideal) S1x2x544x960 .f32)) (ix4 (0 : Fin 1) ch y x)
    = normalize (V c main_v10) (V c main_v16) (V c main_v20) (((cfg1.win 3).blk t).view.emb (ix4 (0 : Fin 1) ch y x))
  rw [emb_out]
  match ch with
  | ⟨0, _⟩ =>
    refine (canon_chan0 _ _ y x).trans ?_
    refine (store0_at (iblk1 V c 0 t) (iblk1 V c 2 t) y x).trans ?_
    rw [iblk_in0, iblk_in2]
    rfl
  | ⟨1, _⟩ =>
    refine (canon_chan1 _ _ y x).trans ?_
    refine (store1_at (iblk1 V c 0 t) (iblk1 V c 1 t) (iblk1 V c 2 t) y x).trans ?_
    rw [iblk_in0, iblk_in1, iblk_in2]
    rfl

theorem mem_blk_out (t : Fin cfg1.N) (i : S16x2x544x960.Idx) :
    i ∈ ((cfg1.win 3).blk t).view.set ↔ ∀ a : Fin 4, win1_3.index t a * S1x2x544x960.size a ≤ (i a).val
      ∧ (i a).val < win1_3.index t a * S1x2x544x960.size a + S1x2x544x960.size a := by
  show i ∈ ((View.whole main_v21).slice (win1_3.rect t)).set ↔ _
  rw [View.set_slice_whole, Rect.mem_set_unit]
  exact Iff.rfl

theorem cover_out (i : S16x2x544x960.Idx) :
    ∃ t : Fin cfg1.N, (cfg1.win 3).flush t = true ∧ i ∈ ((cfg1.win 3).blk t).view.set := by
  have h0 : (i 0).val < 16 := (i 0).isLt
  have h1 : (i 1).val < 2 := (i 1).isLt
  have h2 : (i 2).val < 544 := (i 2).isLt
  have h3 : (i 3).val < 960 := (i 3).isLt
  have hN : (i 0).val < cfg1.N := lt_of_lt_of_eq h0 N_1.symm
  obtain ⟨-, -, -, ⟨e0, e1, e2, e3⟩⟩ := point_facts ⟨(i 0).val, hN⟩
  refine ⟨⟨(i 0).val, hN⟩, flush1_3 _, ?_⟩
  rw [mem_blk_out]
  intro a
  match a with
  | ⟨0, _⟩ => show win1_3.index ⟨(i 0).val, hN⟩ (0 : Fin 4) * 1 ≤ (i 0).val ∧ (i 0).val < win1_3.index ⟨(i 0).val, hN⟩ (0 : Fin 4) * 1 + 1; rw [e0]; show (i 0).val * 1 ≤ (i 0).val ∧ (i 0).val < (i 0).val * 1 + 1; omega
  | ⟨1, _⟩ => show win1_3.index ⟨(i 0).val, hN⟩ (1 : Fin 4) * 2 ≤ (i 1).val ∧ (i 1).val < win1_3.index ⟨(i 0).val, hN⟩ (1 : Fin 4) * 2 + 2; rw [e1]; omega
  | ⟨2, _⟩ => show win1_3.index ⟨(i 0).val, hN⟩ (2 : Fin 4) * 544 ≤ (i 2).val ∧ (i 2).val < win1_3.index ⟨(i 0).val, hN⟩ (2 : Fin 4) * 544 + 544; rw [e2]; omega
  | ⟨3, _⟩ => show win1_3.index ⟨(i 0).val, hN⟩ (3 : Fin 4) * 960 ≤ (i 3).val ∧ (i 3).val < win1_3.index ⟨(i 0).val, hN⟩ (3 : Fin 4) * 960 + 960; rw [e3]; omega

/-- The result array after the region. -/
theorem post_out : (dat1 V c).arrAt 3 cfg1.N = normalize (V c main_v10) (V c main_v16) (V c main_v20) :=
  (dat1 V c).arrAt_eq_of_cover 3 (normalize (V c main_v10) (V c main_v16) (V c main_v20)) (fun t _ => flushed_out V c t) cover_out

end Cert.Warp.Post

end
-- ==== Proof.RangeTest.lean ====
/-
  The pixel-in-range test of the forward warp, on one rounded coordinate.

  A warped coordinate is r = roundeven(position - flow): an integer, or an infinity when the flow is infinite.
  One program tests 0 <= r and r < bound on the extended real r and converts afterwards; the other converts r
  to a 32-bit integer first (toward zero, saturating at the ends of the signed range) and tests the integer.
  Because r is integral, the conversion only clamps it, and clamping to [-2^31, 2^31 - 1] moves r across
  neither 0 nor a bound that itself lies in that range: both tests agree, at the infinities too.
-/
import Idealize.ShloMosaic.PureOps.Ideal

noncomputable section

namespace Cert.Warp

open Idealize.ShloMosaic

/-- The three float literals of the test denote 0, 960 and 544. -/
theorem ofBits_zero : Ideal.ofBits .f32 0x00000000#32 = 0 := by
  simp [Ideal.ofBits, Ideal.ieee]
theorem ofBits_960 : Ideal.ofBits .f32 0x44700000#32 = ((960 : ℝ) : EReal) := by
  simp [Ideal.ofBits, Ideal.ieee, -EReal.coe_mul]; norm_num
theorem ofBits_544 : Ideal.ofBits .f32 0x44080000#32 = ((544 : ℝ) : EReal) := by
  simp [Ideal.ofBits, Ideal.ieee, -EReal.coe_mul]; norm_num

/-- Clamping an integer to the signed 32-bit range and reading the word back signed gives the clamped integer. -/
theorem toInt_ofInt_clamp (z : ℤ) :
    (BitVec.ofInt 32 (max (-2147483648) (min 2147483647 z))).toInt = max (-2147483648) (min 2147483647 z) := by
  rw [BitVec.toInt_ofInt, Int.bmod_def]
  rcases le_total z 2147483647 with h | h <;> rcases le_total (-2147483648) z with h' | h' <;>
    simp only [min_eq_left, min_eq_right, max_eq_left, max_eq_right, h, h'] <;> split <;> omega

/-- The conversion of an integral real is its clamp. -/
theorem toInt_fptosi_int (z : ℤ) :
    (Ideal.fptosi 32 (((z : ℝ)) : EReal)).toInt = max (-2147483648) (min 2147483647 z) := by
  have h : Ideal.fptosi 32 (((z : ℝ)) : EReal) = BitVec.ofInt 32 (max (-2147483648) (min 2147483647 z)) := by
    rw [Ideal.fptosi, Ideal.toIntClamped_coe]
    simp only [Int.floor_intCast, Int.ceil_intCast, ite_self]
    norm_num
  rw [h, toInt_ofInt_clamp]

theorem toInt_fptosi_bot : (Ideal.fptosi 32 (⊥ : EReal)).toInt = -2147483648 := by
  rw [Ideal.fptosi, Ideal.toIntClamped_bot]; decide
theorem toInt_fptosi_top : (Ideal.fptosi 32 (⊤ : EReal)).toInt = 2147483647 := by
  rw [Ideal.fptosi, Ideal.toIntClamped_top]; decide

/-- A rounded coordinate: bottom, top, or an integer. -/
theorem round_cases (e : EReal) :
    Ideal.liftRound Ideal.roundHalfEven e = ⊥ ∨ Ideal.liftRound Ideal.roundHalfEven e = ⊤
      ∨ ∃ z : ℤ, Ideal.liftRound Ideal.roundHalfEven e = (((z : ℝ)) : EReal) := by
  induction e using EReal.rec with
  | bot => exact Or.inl rfl
  | top => exact Or.inr (Or.inl rfl)
  | coe x => exact Or.inr (Or.inr ⟨_, rfl⟩)

/-- 0 <= r on the extended reals is 0 <= (the converted r) on signed words. -/
theorem lower_test (e : EReal) :
    Ideal.cmp .oge (Ideal.liftRound Ideal.roundHalfEven e) (Ideal.ofBits .f32 0x00000000#32)
      = IntOp.cmpi .sge (Ideal.fptosi 32 (Ideal.liftRound Ideal.roundHalfEven e)) 0#32 := by
  rw [ofBits_zero]
  unfold Ideal.cmp IntOp.cmpi
  dsimp only
  congr 1
  rw [BitVec.sle_eq_decide]
  rcases round_cases e with h | h | ⟨z, h⟩ <;> rw [h]
  · rw [toInt_fptosi_bot]; simp
  · rw [toInt_fptosi_top]; simp
  · rw [toInt_fptosi_int]
    have : ((0 : EReal) ≤ ((z : ℝ) : EReal)) ↔ (0 : ℤ) ≤ z := by
      rw [show (0 : EReal) = ((0 : ℝ) : EReal) from rfl, EReal.coe_le_coe_iff]; exact_mod_cast Iff.rfl
    simp only [this, BitVec.toInt_zero, decide_eq_decide]
    omega

/-- r < bound on the extended reals is (the converted r) < bound on signed words, for a bound in the signed range. -/
theorem upper_test (e : EReal) (w : BitVec 32) (c : ℤ) (hw : Ideal.ofBits .f32 w = ((c : ℝ) : EReal)) (k : BitVec 32)
    (hk : k.toInt = c) (hlo : -2147483648 < c) (hhi : c ≤ 2147483647) :
    Ideal.cmp .olt (Ideal.liftRound Ideal.roundHalfEven e) (Ideal.ofBits .f32 w)
      = IntOp.cmpi .slt (Ideal.fptosi 32 (Ideal.liftRound Ideal.roundHalfEven e)) k := by
  rw [hw]
  unfold Ideal.cmp IntOp.cmpi
  dsimp only
  congr 1
  rw [BitVec.slt_eq_decide, hk]
  rcases round_cases e with h | h | ⟨z, h⟩ <;> rw [h]
  · rw [toInt_fptosi_bot]; simp [hlo]
  · rw [toInt_fptosi_top]; simp; omega
  · rw [toInt_fptosi_int]
    have : (((z : ℝ) : EReal) < ((c : ℝ) : EReal)) ↔ z < c := by
      rw [EReal.coe_lt_coe_iff]; exact_mod_cast Iff.rfl
    simp only [this, decide_eq_decide]
    omega

theorem upper_test_960 (e : EReal) :
    Ideal.cmp .olt (Ideal.liftRound Ideal.roundHalfEven e) (Ideal.ofBits .f32 0x44700000#32)
      = IntOp.cmpi .slt (Ideal.fptosi 32 (Ideal.liftRound Ideal.roundHalfEven e)) 960#32 :=
  upper_test e _ 960 (by rw [ofBits_960]; norm_num) _ (by decide) (by norm_num) (by norm_num)

theorem upper_test_544 (e : EReal) :
    Ideal.cmp .olt (Ideal.liftRound Ideal.roundHalfEven e) (Ideal.ofBits .f32 0x44080000#32)
      = IntOp.cmpi .slt (Ideal.fptosi 32 (Ideal.liftRound Ideal.roundHalfEven e)) 544#32 :=
  upper_test e _ 544 (by rw [ofBits_544]; norm_num) _ (by decide) (by norm_num) (by norm_num)

/-- Converting after the masking select is masking after converting: zero converts to zero. -/
theorem fptosi_select_zero (b : BitVec 1) (r : EReal) :
    Ideal.fptosi 32 (Scalar.select b r (Ideal.ofBits .f32 0x00000000#32)) = Scalar.select b (Ideal.fptosi 32 r) 0#32 := by
  unfold Scalar.select
  split
  · rfl
  · rw [ofBits_zero, show (0 : EReal) = (((0 : ℤ) : ℝ) : EReal) by norm_num]
    apply BitVec.eq_of_toInt_eq
    rw [toInt_fptosi_int]; decide

/-- A one-bit mask widened to 32 bits and read signed is the bit read unsigned: 0 or 1 either way. -/
theorem mask_value (b : BitVec 1) :
    ((((b.setWidth 32 : BitVec 32).toInt : ℝ)) : EReal) = (((b.toNat : ℝ)) : EReal) := by
  rcases BitVec.eq_zero_or_eq_one b with h | h <;> subst h <;> norm_num <;> decide

end Cert.Warp

end
-- ==== Proof.RefIndex.lean ====
/-
  The reference's first stage is the specification.

  The reference program forms, for every pixel (b, y, x), the rounded position (x - flow_x, y - flow_y), converts
  both coordinates to 32-bit integers, tests 0 <= X < 960 and 0 <= Y < 544 on the integers, replaces both by zero
  when the test fails, and takes X + 960 Y + 522240 b as the flat target; the weight is the test's bit times the
  inverse depth, and the weighted flow is the flow times that weight. The specification tests the rounded
  coordinates before converting them. A rounded coordinate is an integer or an infinity, the conversion only
  clamps it to the signed 32-bit range, and the clamp moves it across neither 0 nor 960 nor 544: the two tests are
  the same bit, conjunct by conjunct. Converting the masked coordinate is masking the converted one, since zero
  converts to zero. The bit as an unsigned number is the bit widened to 32 bits and read signed.
-/
import proofs.«104739_j16260746182799_1_alg».proof.Proof.RefRead
import proofs.«104739_j16260746182799_1_alg».proof.Proof.Spec
import proofs.«104739_j16260746182799_1_alg».proof.Proof.RangeTest
import Idealize.ShloMosaic.Lib.Pipeline.Value
import Idealize.ShloMosaic.Lib.ValueIdx

noncomputable section

namespace Cert.Warp.Ref

open Idealize.ShloMosaic Idealize.ShloMosaic.ValueIdx Cert.ReferenceIdeal Cert.ReferenceIdeal.Gen

/-! ## The position counters -/

/-- Channel 0 of the position image is the column number. -/
theorem counter_col (y : Fin 544) (x : Fin 960) :
    Read.val_main_v6 (F := Ideal) (ix3 (0 : Fin 2) y x) = BitVec.ofNat 32 x.val := by
  unfold Read.val_main_v6
  refine (concatenate_pair_apply_left (t := S2x544x960) (s₁ := S1x544x960) (s₂ := S1x544x960) _ _ _ _ _ rfl
    (ix3 (0 : Fin 1) y x) ?_).trans ?_
  · intro b
    match b with
    | ⟨0, _⟩ => rfl
    | ⟨1, _⟩ => rfl
    | ⟨2, _⟩ => rfl
  · rewrite [Read.val_main_v4_apply, Read.val_main_v3_apply, Read.val_main_v1_apply]
    rfl

/-- Channel 1 of the position image is the row number. -/
theorem counter_row (y : Fin 544) (x : Fin 960) :
    Read.val_main_v6 (F := Ideal) (ix3 (1 : Fin 2) y x) = BitVec.ofNat 32 y.val := by
  unfold Read.val_main_v6
  refine (concatenate_pair_apply_right (t := S2x544x960) (s₁ := S1x544x960) (s₂ := S1x544x960) _ _ _ _ _ rfl rfl
    (ix3 (0 : Fin 1) y x) ?_ ?_).trans ?_
  · intro b hb
    match b, hb with
    | ⟨0, _⟩, hb => exact absurd rfl hb
    | ⟨1, _⟩, _ => rfl
    | ⟨2, _⟩, _ => rfl
  · rfl
  · rewrite [Read.val_main_v5_apply, Read.val_main_v2_apply, Read.val_main_v0_apply]
    rfl

/-! ## The rounded coordinates -/

/-- The index a pixel of the broadcast position image reads the position image at. -/
theorem position_idx (b : Fin 16) (c : Fin 2) (y : Fin 544) (x : Fin 960) :
    Read.idx_main_v8 (Read.idx_main_v9 (ix4 b c y x)) = ix3 c y x := by
  funext a
  match a with
  | ⟨0, _⟩ => rfl
  | ⟨1, _⟩ => rfl
  | ⟨2, _⟩ => rfl

/-- The rounded column of pixel (b, y, x). -/
theorem round_x (x0 : (⟨S16x2x544x960, .f32⟩ : BufTy).Contents (Elt Ideal)) (b : Fin 16) (y : Fin 544) (x : Fin 960) :
    Read.val_main_v11 (F := Ideal) x0 (ix4 b (0 : Fin 2) y x) = warpX x0 b y x := by
  rewrite [Read.val_main_v11_apply, Read.val_main_v10_apply, Read.val_main_v9_apply, Read.val_main_v8_apply,
    Read.val_main_v7_apply, position_idx, counter_col]
  rfl

/-- The rounded row of pixel (b, y, x). -/
theorem round_y (x0 : (⟨S16x2x544x960, .f32⟩ : BufTy).Contents (Elt Ideal)) (b : Fin 16) (y : Fin 544) (x : Fin 960) :
    Read.val_main_v11 (F := Ideal) x0 (ix4 b (1 : Fin 2) y x) = warpY x0 b y x := by
  rewrite [Read.val_main_v11_apply, Read.val_main_v10_apply, Read.val_main_v9_apply, Read.val_main_v8_apply,
    Read.val_main_v7_apply, position_idx, counter_row]
  rfl

/-! ## One channel of a four-axis image as a three-axis image -/

/-- Dropping the unit channel axis keeps the three other coordinates. -/
theorem squeeze_idx (b : Fin 16) (y : Fin 544) (x : Fin 960) :
    Read.idx_main_v14 (ix3 b y x) = ix4 b (0 : Fin 1) y x := by
  have hb := b.isLt
  have hy := y.isLt
  have hx := x.isLt
  funext a
  match a with
  | ⟨0, _⟩ => exact Fin.ext (by show ((b.val * 544 + y.val) * 960 + x.val) / 522240 = b.val; omega)
  | ⟨1, _⟩ => rfl
  | ⟨2, _⟩ => exact Fin.ext (by show ((b.val * 544 + y.val) * 960 + x.val) / 960 % 544 = y.val; omega)
  | ⟨3, _⟩ => exact Fin.ext (by show ((b.val * 544 + y.val) * 960 + x.val) % 960 = x.val; omega)

/-- The slice of channel 0 reads channel 0. -/
theorem slice0_idx (b : Fin 16) (y : Fin 544) (x : Fin 960) :
    Read.idx_main_v13 (ix4 b (0 : Fin 1) y x) = ix4 b (0 : Fin 2) y x := by
  funext a
  match a with
  | ⟨0, _⟩ => rfl
  | ⟨1, _⟩ => rfl
  | ⟨2, _⟩ => rfl
  | ⟨3, _⟩ => rfl

/-- The slice of channel 1 reads channel 1. -/
theorem slice1_idx (b : Fin 16) (y : Fin 544) (x : Fin 960) :
    Read.idx_main_v15 (ix4 b (0 : Fin 1) y x) = ix4 b (1 : Fin 2) y x := by
  funext a
  match a with
  | ⟨0, _⟩ => rfl
  | ⟨1, _⟩ => rfl
  | ⟨2, _⟩ => rfl
  | ⟨3, _⟩ => rfl

/-- The converted column of pixel (b, y, x). -/
theorem int_x (x0 : (⟨S16x2x544x960, .f32⟩ : BufTy).Contents (Elt Ideal)) (b : Fin 16) (y : Fin 544) (x : Fin 960) :
    Read.val_main_v14 (F := Ideal) x0 (ix3 b y x) = Ideal.fptosi 32 (warpX x0 b y x) := by
  rewrite [Read.val_main_v14_apply, Read.val_main_v13_apply, Read.val_main_v12_apply, squeeze_idx, slice0_idx, round_x]
  rfl

/-- The converted row of pixel (b, y, x). -/
theorem int_y (x0 : (⟨S16x2x544x960, .f32⟩ : BufTy).Contents (Elt Ideal)) (b : Fin 16) (y : Fin 544) (x : Fin 960) :
    Read.val_main_v16 (F := Ideal) x0 (ix3 b y x) = Ideal.fptosi 32 (warpY x0 b y x) := by
  rewrite [Read.val_main_v16_apply, Read.val_main_v15_apply, Read.val_main_v12_apply,
    show Read.idx_main_v16 (ix3 b y x) = ix4 b (0 : Fin 1) y x from squeeze_idx b y x, slice1_idx, round_y]
  rfl

/-! ## The in-range bit -/

/-- The integer test on the converted coordinates is the test on the rounded ones. -/
theorem hit_eq (x0 : (⟨S16x2x544x960, .f32⟩ : BufTy).Contents (Elt Ideal)) (b : Fin 16) (y : Fin 544) (x : Fin 960) :
    Read.val_main_v27 (F := Ideal) x0 (ix3 b y x) = hit x0 b y x := by
  rewrite [Read.val_main_v27_apply, Read.val_main_v24_apply, Read.val_main_v21_apply, Read.val_main_v18_apply,
    Read.val_main_v20_apply, Read.val_main_v23_apply, Read.val_main_v26_apply, Read.val_main_v17_apply,
    Read.val_main_v19_apply, Read.val_main_v22_apply, Read.val_main_v25_apply, Read.val_main_c_apply,
    Read.val_main_c_0_apply, Read.val_main_c_1_apply, Read.val_main_c_2_apply, int_x, int_y]
  unfold hit inRange warpX warpY
  rw [lower_test, upper_test_960, lower_test, upper_test_544]

/-! ## The masked integer coordinates -/

/-- The index a pixel of either channel reads the in-range bit at. -/
theorem mask_idx (b : Fin 16) (c : Fin 2) (y : Fin 544) (x : Fin 960) :
    Read.idx_main_v28 (Read.idx_main_call1_v1 (ix4 b c y x)) = ix3 b y x := by
  funext a
  match a with
  | ⟨0, _⟩ => rfl
  | ⟨1, _⟩ => rfl
  | ⟨2, _⟩ => rfl

/-- The masked converted column. -/
theorem masked_x (x0 : (⟨S16x2x544x960, .f32⟩ : BufTy).Contents (Elt Ideal)) (b : Fin 16) (y : Fin 544) (x : Fin 960) :
    Read.val_main_v40 (F := Ideal) x0 (ix3 b y x)
      = Scalar.select (hit x0 b y x) (Ideal.fptosi 32 (warpX x0 b y x)) 0#32 := by
  rewrite [Read.val_main_v40_apply, Read.val_main_v39_apply,
    show Read.idx_main_v40 (ix3 b y x) = ix4 b (0 : Fin 1) y x from squeeze_idx b y x,
    show Read.idx_main_v39 (ix4 b (0 : Fin 1) y x) = ix4 b (0 : Fin 2) y x from slice0_idx b y x, Read.val_main_v29_apply,
    Read.val_main_call1_v1_apply, Read.val_main_v28_apply, mask_idx, hit_eq, Read.val_main_v12_apply, round_x,
    Read.val_main_call1_v2_apply, Read.val_main_call1_v0_apply, Read.val_main_c_3_apply]
  rfl

/-- The masked converted row. -/
theorem masked_y (x0 : (⟨S16x2x544x960, .f32⟩ : BufTy).Contents (Elt Ideal)) (b : Fin 16) (y : Fin 544) (x : Fin 960) :
    Read.val_main_v42 (F := Ideal) x0 (ix3 b y x)
      = Scalar.select (hit x0 b y x) (Ideal.fptosi 32 (warpY x0 b y x)) 0#32 := by
  rewrite [Read.val_main_v42_apply, Read.val_main_v41_apply,
    show Read.idx_main_v42 (ix3 b y x) = ix4 b (0 : Fin 1) y x from squeeze_idx b y x,
    show Read.idx_main_v41 (ix4 b (0 : Fin 1) y x) = ix4 b (1 : Fin 2) y x from slice1_idx b y x, Read.val_main_v29_apply,
    Read.val_main_call1_v1_apply, Read.val_main_v28_apply, mask_idx, hit_eq, Read.val_main_v12_apply, round_y,
    Read.val_main_call1_v2_apply, Read.val_main_call1_v0_apply, Read.val_main_c_3_apply]
  rfl

/-! ## The batch offset -/

/-- The batch offset of pixel (b, y, x) is 522240 b. -/
theorem batch_offset (b : Fin 16) (y : Fin 544) (x : Fin 960) :
    Read.val_main_v46 (F := Ideal) (ix3 b y x) = IntOp.muli (BitVec.ofNat 32 b.val) 522240#32 := by
  rewrite [Read.val_main_v46_apply, Read.val_main_v38_apply, Read.val_main_v36_apply, Read.val_main_v35_apply,
    Read.val_main_v37_apply, Read.val_main_c_4_apply]
  rfl

/-! ## The three images -/

/-- The reference's flat targets are the specification's. -/
theorem idx_eq (x0 : (⟨S16x2x544x960, .f32⟩ : BufTy).Contents (Elt Ideal)) :
    Read.val_main_v47 (F := Ideal) x0 = idxG x0 := by
  funext i
  obtain ⟨b, y, x, rfl⟩ : ∃ (b : Fin 16) (y : Fin 544) (x : Fin 960), i = ix3 b y x := ⟨i 0, i 1, i 2, eq_ix3 i⟩
  rewrite [idxG_ix, Read.val_main_v47_apply, Read.val_main_v45_apply, Read.val_main_v44_apply, Read.val_main_v43_apply,
    Read.val_main_c_5_apply, masked_x, masked_y, batch_offset]
  unfold target
  rw [fptosi_select_zero, fptosi_select_zero]

/-- The index a pixel of either channel reads the weight image at. -/
theorem weight_idx (b : Fin 16) (c : Fin 2) (y : Fin 544) (x : Fin 960) :
    Read.idx_main_v33 (ix4 b c y x) = ix4 b (0 : Fin 1) y x := by
  funext a
  match a with
  | ⟨0, _⟩ => rfl
  | ⟨1, _⟩ => rfl
  | ⟨2, _⟩ => rfl
  | ⟨3, _⟩ => rfl

/-- The index a pixel of the weight image reads the in-range bit at. -/
theorem bit_idx (b : Fin 16) (y : Fin 544) (x : Fin 960) :
    Read.idx_main_v30 (ix4 b (0 : Fin 1) y x) = ix3 b y x := by
  funext a
  match a with
  | ⟨0, _⟩ => rfl
  | ⟨1, _⟩ => rfl
  | ⟨2, _⟩ => rfl

/-- The reference's weights are the specification's. -/
theorem wt_eq (x0 : (⟨S16x2x544x960, .f32⟩ : BufTy).Contents (Elt Ideal))
    (x1 : (⟨S16x1x544x960, .f32⟩ : BufTy).Contents (Elt Ideal)) (b : Fin 16) (y : Fin 544) (x : Fin 960) :
    Read.val_main_v32 (F := Ideal) x0 x1 (ix4 b (0 : Fin 1) y x) = wtG x0 x1 (ix3 b y x) := by
  rewrite [wtG_ix, Read.val_main_v32_apply, Read.val_main_v31_apply, Read.val_main_v30_apply, bit_idx, hit_eq]
  unfold weight
  rewrite [mask_value]
  rfl

/-- The reference's weighted flow is the specification's. -/
theorem wf_eq (x0 : (⟨S16x2x544x960, .f32⟩ : BufTy).Contents (Elt Ideal))
    (x1 : (⟨S16x1x544x960, .f32⟩ : BufTy).Contents (Elt Ideal)) :
    Read.val_main_v34 (F := Ideal) x0 x1 = wfG x0 x1 := by
  funext i
  obtain ⟨b, c, y, x, rfl⟩ : ∃ (b : Fin 16) (c : Fin 2) (y : Fin 544) (x : Fin 960), i = ix4 b c y x :=
    ⟨i 0, i 1, i 2, i 3, eq_ix4 i⟩
  rewrite [wfG_ix, Read.val_main_v34_apply, Read.val_main_v33_apply, weight_idx, wt_eq, wtG_ix]
  rfl

end Cert.Warp.Ref

end
-- ==== Proof.RefTail.lean ====
/-
  The last stage of the reference, read index by index.

  The reference stacks the two summed flow images as the two rows of a 2 x N array (N = 16 * 544 * 960),
  multiplies both rows by one row r, reshapes to 2 x 16 x 544 x 960 and swaps the two leading axes. The row r is
  (row 0 /= 0) * (1 / (summed weight + 1e-7)). So the result at (b, c, y, x) is the summed flow of channel c at the
  flat position n = (b * 544 + y) * 960 + x, times r at n: the specification's normalize of the three sums, each
  read as a 16 x 544 x 960 image at (b, y, x), whose row-major position is the same n.
-/
import proofs.«104739_j16260746182799_1_alg».proof.Proof.RefRead
import proofs.«104739_j16260746182799_1_alg».proof.Proof.Spec
import proofs.«104739_j16260746182799_1_alg».proof.Proof.RangeTest
import Idealize.ShloMosaic.Lib.Pipeline.Value
import Idealize.ShloMosaic.Lib.ValueIdx

noncomputable section

namespace Cert.Warp.Ref

open Cert.ReferenceIdeal Cert.ReferenceIdeal.Gen Cert.ReferenceIdeal.Read Idealize.ShloMosaic Idealize.ShloMosaic.ValueIdx

section
variable (x0 : (⟨S16x2x544x960, .f32⟩ : BufTy).Contents (Elt Ideal)) (x1 : (⟨S16x1x544x960, .f32⟩ : BufTy).Contents (Elt Ideal))

/-- On the extended reals "unordered or not equal" and "ordered and not equal" are the same test. -/
theorem cmp_une (a z : EReal) : Ideal.cmp .une a z = Ideal.cmp .one a z := rfl

/-- The row-major position of pixel (b, y, x) in the flat array of all pixels. -/
def flat (b : Fin 16) (y : Fin 544) (x : Fin 960) : Fin 8355840 :=
  ⟨(b.val * 544 + y.val) * 960 + x.val, by have := b.isLt; have := y.isLt; have := x.isLt; omega⟩

/-- Row 0 of the stacked array is the summed x-flow. -/
theorem v71_row0 (n : Fin 8355840) :
    val_main_v71 (F := Ideal) x0 x1 (ix2 (0 : Fin 2) n) = val_main_v56 (F := Ideal) x0 x1 (ix1 n) := by
  unfold val_main_v71
  rw [concatenate_pair_apply_left (0 : Fin 2) (val_main_v69 (F := Ideal) x0 x1) (val_main_v70 (F := Ideal) x0 x1)
    concatenates_S1x8355840_S1x8355840_S2x8355840_d0 (ix2 (0 : Fin 2) n) rfl (ix2 (0 : Fin 1) n)
    (fun b => match b with | ⟨0, _⟩ => rfl | ⟨1, _⟩ => rfl)]
  rw [val_main_v69_apply]
  exact congrArg _ (funext fun a => match a with | ⟨0, _⟩ => rfl)

/-- Row 1 of the stacked array is the summed y-flow. -/
theorem v71_row1 (n : Fin 8355840) :
    val_main_v71 (F := Ideal) x0 x1 (ix2 (1 : Fin 2) n) = val_main_v61 (F := Ideal) x0 x1 (ix1 n) := by
  unfold val_main_v71
  rw [concatenate_pair_apply_right (0 : Fin 2) (val_main_v69 (F := Ideal) x0 x1) (val_main_v70 (F := Ideal) x0 x1)
    concatenates_S1x8355840_S1x8355840_S2x8355840_d0 (ix2 (1 : Fin 2) n) rfl rfl (ix2 (0 : Fin 1) n)
    (fun b => match b with | ⟨0, _⟩ => fun h => absurd rfl h | ⟨1, _⟩ => fun _ => rfl) rfl]
  rw [val_main_v70_apply]
  exact congrArg _ (funext fun a => match a with | ⟨0, _⟩ => rfl)

/-- The common factor at flat position n: (summed x-flow /= 0) * (1 / (summed weight + 1e-7)). -/
theorem v77_ix (n : Fin 8355840) :
    val_main_v77 (F := Ideal) x0 x1 (ix1 n)
      = ((((Ideal.cmp .une (val_main_v56 (F := Ideal) x0 x1 (ix1 n)) (Ideal.ofBits .f32 0x00000000#32)).toNat : ℝ)) : EReal)
        * Ideal.div (Ideal.ofBits .f32 0x3F800000#32)
            (val_main_v64 (F := Ideal) x0 x1 (ix1 n) + Ideal.ofBits .f32 0x33D6BF95#32) := by
  have e : idx_main_v72 (idx_main_v73 (ix1 n)) = ix2 (0 : Fin 2) n :=
    funext fun a => Fin.ext (by
      match a with
      | ⟨0, _⟩ => rfl
      | ⟨1, _⟩ => exact Nat.mod_eq_of_lt n.isLt)
  rw [val_main_v77_apply, val_main_v76_apply, val_main_v75_apply, val_main_v73_apply, val_main_v72_apply, e, v71_row0,
    val_main_v74_apply, val_main_cst_10_apply, val_main_v68_apply, val_main_v67_apply, val_main_cst_9_apply,
    val_main_v66_apply, val_main_v65_apply, val_main_cst_8_apply]
  rfl

/-- The scaled stacked array at (c, n): row c at n times the common factor at n. -/
theorem v80_ix (c : Fin 2) (n : Fin 8355840) :
    val_main_v80 (F := Ideal) x0 x1 (ix2 c n)
      = val_main_v71 (F := Ideal) x0 x1 (ix2 c n) * val_main_v77 (F := Ideal) x0 x1 (ix1 n) := by
  have e : idx_main_v78 (idx_main_v79 (ix2 c n)) = ix1 n := funext fun a => match a with | ⟨0, _⟩ => rfl
  rw [val_main_v80_apply, val_main_v79_apply, val_main_v78_apply, e]
  rfl

/-- The result at (b, c, y, x) is the scaled stacked array at (c, flat position of (b, y, x)). -/
theorem v82_ix (b : Fin 16) (c : Fin 2) (y : Fin 544) (x : Fin 960) :
    val_main_v82 (F := Ideal) x0 x1 (ix4 b c y x) = val_main_v80 (F := Ideal) x0 x1 (ix2 c (flat b y x)) := by
  have e : idx_main_v81 (idx_main_v82 (ix4 b c y x)) = ix2 c (flat b y x) :=
    funext fun a => Fin.ext (by
      have := b.isLt; have := c.isLt; have := y.isLt; have := x.isLt
      match a with
      | ⟨0, _⟩ =>
        show (((c.val * 16 + b.val) * 544 + y.val) * 960 + x.val) / 8355840 = c.val
        omega
      | ⟨1, _⟩ =>
        show (((c.val * 16 + b.val) * 544 + y.val) * 960 + x.val) % 8355840 = (b.val * 544 + y.val) * 960 + x.val
        omega)
  rw [val_main_v82_apply, val_main_v81_apply, e]

/-- A flat array read as a 16 x 544 x 960 image at (b, y, x) is the array at the flat position. -/
theorem cast_ix (s : SFlat.Idx → EReal) (h : SFlat.ShapeCasts SPix)
    (b : Fin 16) (y : Fin 544) (x : Fin 960) :
    shapeCast SPix s h (ix3 b y x) = s (ix1 (flat b y x)) := by
  refine shapeCast_apply s h (ix3 b y x) (ix1 (flat b y x)) ?_
  rw [Shape.rowMajor_val_one, Shape.rowMajor_val_three]
  rfl

end

/-- The reference's last stage is the specification's normalize of the three scatter sums. -/
theorem tail_eq (h : SFlat.ShapeCasts SPix) (x0 : (⟨S16x2x544x960, .f32⟩ : BufTy).Contents (Elt Ideal))
    (x1 : (⟨S16x1x544x960, .f32⟩ : BufTy).Contents (Elt Ideal)) :
    val_main_v82 (F := Ideal) x0 x1
      = normalize (shapeCast SPix (val_main_v56 (F := Ideal) x0 x1) h)
          (shapeCast SPix (val_main_v61 (F := Ideal) x0 x1) h)
          (shapeCast SPix (val_main_v64 (F := Ideal) x0 x1) h) := by
  funext i
  obtain ⟨b, c, y, x, rfl⟩ : ∃ (b : Fin 16) (c : Fin 2) (y : Fin 544) (x : Fin 960), i = ix4 b c y x :=
    ⟨i 0, i 1, i 2, i 3, eq_ix4 i⟩
  rw [v82_ix, v80_ix, v77_ix]
  have hc : c = 0 ∨ c = 1 := by
    rcases c with ⟨_ | _ | k, hk⟩
    · exact Or.inl rfl
    · exact Or.inr rfl
    · omega
  rcases hc with rfl | rfl
  · rw [v71_row0, normalize_ix0]
    simp only [cast_ix]
    unfold scaled
    rw [mask_value, cmp_une]
  · rw [v71_row1, normalize_ix1]
    simp only [cast_ix]
    unfold scaled
    rw [mask_value, cmp_une]

end Cert.Warp.Ref

end
-- ==== Proof.Bridge.lean ====
/-
  The two programs compute one function.

  Kernel side: the result array is the second region's image, the specification's normalize of the three summed images
  the region reads; each summed image is the scatter sum, at the first region's target image, of a flat list made from the
  first region's weighted flow or weight image; and those three images are the specification's images of the arguments.
  Reference side: its first stage is the same three images, its scatter sums are the same host operation applied to the
  same flat lists (the weight list is flattened from [16, 1, 544, 960] there and from [16, 544, 960] here: the same
  row-major order), and its last stage is the same normalize. So the kernel's result array is the reference's result
  term of the same arguments. No algebraic law is needed and the inputs' finiteness is never used.
-/
import proofs.«104739_j16260746182799_1_alg».proof.Proof.KernelIdealFrame
import proofs.«104739_j16260746182799_1_alg».proof.Proof.RefRead
import proofs.«104739_j16260746182799_1_alg».proof.Proof.Spec
import proofs.«104739_j16260746182799_1_alg».proof.Proof.MidValue
import proofs.«104739_j16260746182799_1_alg».proof.Proof.PostValue
import proofs.«104739_j16260746182799_1_alg».proof.Proof.RefIndex
import proofs.«104739_j16260746182799_1_alg».proof.Proof.RefTail
import Idealize.ShloMosaic.Lib.Pipeline.Value
import Idealize.ShloMosaic.Lib.ValueIdx

set_option maxRecDepth 16384

noncomputable section

namespace Cert.Warp.Bridge

open Cert.KernelIdeal Cert.KernelIdeal.Gen Cert.KernelIdeal.GenP Idealize.ShloMosaic Idealize.ShloMosaic.ValueIdx
open Idealize.ShloMosaic.TcCoe Idealize.SL.Sem

/-- A weight image flattened from [16, 544, 960] and the same weights flattened from [16, 1, 544, 960] are one flat list:
    element k of either is the weight of pixel (k / 522240, (k / 960) mod 544, k mod 960). -/
theorem flat_weights (W : SPix.Idx → EReal) (W' : SDepth.Idx → EReal)
    (h : ∀ (b : Fin 16) (y : Fin 544) (x : Fin 960), W' (ix4 b (0 : Fin 1) y x) = W (ix3 b y x))
    (h1 : SPix.ShapeCasts SFlat) (h2 : SDepth.ShapeCasts SFlat) :
    shapeCast SFlat W h1 = shapeCast SFlat W' h2 := by
  funext n
  obtain ⟨k, rfl⟩ : ∃ k : Fin 8355840, n = ix1 k := ⟨n 0, eq_ix1 n⟩
  have hk : k.val < 8355840 := k.isLt
  let b : Fin 16 := ⟨k.val / 522240, by omega⟩
  let y : Fin 544 := ⟨(k.val / 960) % 544, by omega⟩
  let x : Fin 960 := ⟨k.val % 960, by omega⟩
  have e1 : shapeCast SFlat W h1 (ix1 k) = W (ix3 b y x) :=
    shapeCast_apply W h1 _ _ (by
      rw [Shape.rowMajor_val_three, Shape.rowMajor_val_one]
      show ((k.val / 522240) * 544 + (k.val / 960) % 544) * 960 + k.val % 960 = k.val
      omega)
  have e2 : shapeCast SFlat W' h2 (ix1 k) = W' (ix4 b (0 : Fin 1) y x) :=
    shapeCast_apply W' h2 _ _ (by
      rw [Shape.rowMajor_val_four, Shape.rowMajor_val_one]
      show ((((k.val / 522240) * 1 + 0) * 544 + (k.val / 960) % 544) * 960 + k.val % 960) = k.val
      omega)
  rw [e1, e2, h]

variable (m : (ℓ : Loc nD τ sig) → Buf (Elt Ideal) ℓ) (ρ : Dev nD → PrngReg) (c : Dev nD)

/-- The three summed images are the reference's three scatter sums, as images. -/
theorem sum_x : V2 m ρ c main_v10
    = shapeCast SPix (Cert.ReferenceIdeal.Read.val_main_v56 (F := Ideal) (m ((c.tc : Thread nD τ).loc main_arg0)) (m ((c.tc : Thread nD τ).loc main_arg1)))
        shapeCasts_S8355840_S16x544x960 := by
  rw [Mid.mid_v10, ← Ref.idx_eq, ← Ref.wf_eq]
  rfl

theorem sum_y : V2 m ρ c main_v16
    = shapeCast SPix (Cert.ReferenceIdeal.Read.val_main_v61 (F := Ideal) (m ((c.tc : Thread nD τ).loc main_arg0)) (m ((c.tc : Thread nD τ).loc main_arg1)))
        shapeCasts_S8355840_S16x544x960 := by
  rw [Mid.mid_v16, ← Ref.idx_eq, ← Ref.wf_eq]
  rfl

theorem sum_w : V2 m ρ c main_v20
    = shapeCast SPix (Cert.ReferenceIdeal.Read.val_main_v64 (F := Ideal) (m ((c.tc : Thread nD τ).loc main_arg0)) (m ((c.tc : Thread nD τ).loc main_arg1)))
        shapeCasts_S8355840_S16x544x960 := by
  rw [Mid.mid_v20, ← Ref.idx_eq,
    flat_weights _ (Cert.ReferenceIdeal.Read.val_main_v32 (F := Ideal) (m ((c.tc : Thread nD τ).loc main_arg0)) (m ((c.tc : Thread nD τ).loc main_arg1)))
      (fun b y x => Ref.wt_eq _ _ b y x) _ Cert.ReferenceIdeal.Facts₀.shapeCasts_S16x1x544x960_S8355840]
  rfl

/-- The kernel's result array is the reference's result term of the same arguments. -/
theorem result_eq : V3 m ρ c main_v21
    = Cert.ReferenceIdeal.Read.val_main_v82 (F := Ideal) (m ((c.tc : Thread nD τ).loc main_arg0)) (m ((c.tc : Thread nD τ).loc main_arg1)) := by
  refine ((W3_arr m ρ c 3).trans (Post.post_out (V2 m ρ) c)).trans ?_
  rw [sum_x, sum_y, sum_w]
  exact (Ref.tail_eq _ _ _).symm

end Cert.Warp.Bridge

end
-- ==== Proof.lean ====
/-
  A depth-weighted forward warp of a flow field, kernel against reference, on the extended reals.

  Both programs send every pixel (b, y, x) to the rounded position (x - flow_x, y - flow_y), keep it when that position is
  inside the image, scatter-add its weighted flow and its weight (the inverse depth) at the flat target, and divide the
  summed flow by the summed weight plus 1e-7 wherever the summed first component is not zero. The kernel does the
  pixelwise first and last stages in two pipelined regions over the sixteen batch entries and leaves the scatter sums to
  the host; the reference is host code throughout.

  The two differ in where the in-range test is made — on the rounded float, or on the integer it converts to — and these
  agree because a rounded coordinate is integral and the conversion only clamps it (the module on the range test); in
  the layout of the weights before they are flattened; and in how the result is assembled (channel slabs stored per batch
  entry, against a concatenate, reshape and transpose). Everything else is the same operation on the same values. The
  frames of the two kernel programs are the frame certificates of the modules KernelFrame and KernelIdealFrame; the
  reference's frame is its run (read stage by stage) with the result dropped; the idealization rewrote nothing, so there is nothing to preserve.
-/
import proofs.«104739_j16260746182799_1_alg».proof.Defs
import proofs.«104739_j16260746182799_1_alg».proof.Proof.Gen.Kernel
import proofs.«104739_j16260746182799_1_alg».proof.Proof.Gen.Kernel.Skeleton
import proofs.«104739_j16260746182799_1_alg».proof.Proof.Gen.Kernel.Launch
import proofs.«104739_j16260746182799_1_alg».proof.Proof.Gen.Kernel.Points
import proofs.«104739_j16260746182799_1_alg».proof.Proof.KernelFrame
import proofs.«104739_j16260746182799_1_alg».proof.Proof.Gen.KernelIdeal
import proofs.«104739_j16260746182799_1_alg».proof.Proof.Gen.KernelIdeal.Skeleton
import proofs.«104739_j16260746182799_1_alg».proof.Proof.Gen.KernelIdeal.Launch
import proofs.«104739_j16260746182799_1_alg».proof.Proof.Gen.KernelIdeal.Points
import proofs.«104739_j16260746182799_1_alg».proof.Proof.KernelIdealFrame
import proofs.«104739_j16260746182799_1_alg».proof.Proof.KernelRun
import proofs.«104739_j16260746182799_1_alg».proof.Proof.Gen.ReferenceIdeal
import proofs.«104739_j16260746182799_1_alg».proof.Proof.RefRead
import proofs.«104739_j16260746182799_1_alg».proof.Proof.RefOps
import proofs.«104739_j16260746182799_1_alg».proof.Proof.RefRun
import proofs.«104739_j16260746182799_1_alg».proof.Proof.Gen.Pre_finite_inputs
import proofs.«104739_j16260746182799_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- Both runs end with the result array at the reference's result term of the kernel's arguments. -/
theorem algebraic : Cert.algebraic_KernelIdeal_ReferenceIdeal := by
  intro m ρ m' ρ' _ hagree
  refine ⟨fun c => Cert.ReferenceIdeal.Read.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.Warp.Bridge.result_eq m ρ c), (h c).2.1, (h c).2.2⟩)
      (Cert.KernelIdeal.RunOut.run_out m ρ)
  · exact (θ_run Cert.ReferenceIdeal.defs _ _).mono
      (fun r h c => ⟨by rw [(h c).1, (hagree c).1, (hagree c).2], (h c).2⟩)
      (Cert.ReferenceIdeal.Stages.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
